-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256x128 : Shape := ⟨4, ![8, 256, 256, 128]⟩
abbrev S8x256 : Shape := ⟨2, ![8, 256]⟩
abbrev S128x128 : Shape := ⟨2, ![128, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256x128 : S_.BroadcastsInDim S8x256x256x128 (![] : Fin 0 → Fin S8x256x256x128.rank)
  reducesTo_S8x256x256x128_S_d0_1_2_3 : S8x256x256x128.ReducesTo [0, 1, 2, 3] S_
  bcast_S_S8x256 : S_.BroadcastsInDim S8x256 (![] : Fin 0 → Fin S8x256.rank)
  reducesTo_S8x256_S_d0_1 : S8x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x256x128 .f32) (main_arg1 : FVec F S8x256x256x128 .f32) (main_arg2 : FVec F S8x256 .f32) (main_arg3 : FVec F S128x128 .f32) (main_arg4 : FVec F S128 .f32) (main_arg5 : FVec F S128x128 .f32) (main_arg6 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256x128 .f32 := Host.absf main_arg1
  let main_cst_0 : FVec F S_ .f32 := constant S_ .f32 0x7F800000#32
  let main_v5 : FVec F S8x256x256x128 .f32 := broadcastInDim S8x256x256x128 ![] bcast_S_S8x256x256x128 main_cst_0
  let main_v6 : IVec S8x256x256x128 1 := cmpf .olt main_v4 main_v5
  let main_c_1 : IVec S_ 1 := constantI S_ 1 1#1
  let main_v7 : IVec S_ 1 := (fun x v => Host.reduce IntOp.andi x v reducesTo_S8x256x256x128_S_d0_1_2_3 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8x256x128 : Shape := ⟨3, ![8, 256, 128]⟩
abbrev S8x256x256x128 : Shape := ⟨4, ![8, 256, 256, 128]⟩
abbrev S8x256 : Shape := ⟨2, ![8, 256]⟩
abbrev S128x128 : Shape := ⟨2, ![128, 128]⟩
abbrev S128 : Shape := ⟨1, ![128]⟩
abbrev S2048x128 : Shape := ⟨2, ![2048, 128]⟩
abbrev S2048x1 : Shape := ⟨2, ![2048, 1]⟩
abbrev S1x128 : Shape := ⟨2, ![1, 128]⟩
abbrev S512x128 : Shape := ⟨2, ![512, 128]⟩
abbrev S512x1 : Shape := ⟨2, ![512, 1]⟩
abbrev S8x256x1 : Shape := ⟨3, ![8, 256, 1]⟩
abbrev S1x64x256x128 : Shape := ⟨4, ![1, 64, 256, 128]⟩
abbrev S1x256x1 : Shape := ⟨3, ![1, 256, 1]⟩
abbrev S1x256x128 : Shape := ⟨3, ![1, 256, 128]⟩
abbrev S1x64x1 : Shape := ⟨3, ![1, 64, 1]⟩
abbrev S1x64x128 : Shape := ⟨3, ![1, 64, 128]⟩
abbrev S64x256x128 : Shape := ⟨3, ![64, 256, 128]⟩
abbrev S256x1 : Shape := ⟨2, ![256, 1]⟩
abbrev S256x128 : Shape := ⟨2, ![256, 128]⟩
abbrev S64x128 : Shape := ⟨2, ![64, 128]⟩
abbrev S64x1 : Shape := ⟨2, ![64, 1]⟩

abbrev nBuf : Space → Nat
  | .hbm => 19
  | .vmem => 24
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S8x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2048x128, .f32⟩
  | .hbm, ⟨8, _⟩ => ⟨S2048x1, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S2048x128, .f32⟩
  | .hbm, ⟨14, _⟩ => ⟨S2048x128, .f32⟩
  | .hbm, ⟨15, _⟩ => ⟨S8x256x128, .f32⟩
  | .hbm, ⟨16, _⟩ => ⟨S8x256x128, .f32⟩
  | .hbm, ⟨17, _⟩ => ⟨S8x256x1, .f32⟩
  | .hbm, ⟨18, _⟩ => ⟨S8x256x128, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x64x256x128, .f32⟩
  | .local _ .vmem, ⟨13, _⟩ => ⟨S1x64x256x128, .f32⟩
  | .local _ .vmem, ⟨14, _⟩ => ⟨S1x256x1, .f32⟩
  | .local _ .vmem, ⟨15, _⟩ => ⟨S1x256x1, .f32⟩
  | .local _ .vmem, ⟨16, _⟩ => ⟨S1x256x128, .f32⟩
  | .local _ .vmem, ⟨17, _⟩ => ⟨S1x256x128, .f32⟩
  | .local _ .vmem, ⟨18, _⟩ => ⟨S1x64x1, .f32⟩
  | .local _ .vmem, ⟨19, _⟩ => ⟨S1x64x1, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S8x256x128_S2048x128 : S8x256x128.ShapeCasts S2048x128
  shapeCasts_S8x256_S2048x1 : S8x256.ShapeCasts S2048x1
  transposes_S128x128_S128x128_1_0 : S128x128.Transposes [1, 0] S128x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  broadcasts_S512x1_S512x128 : S512x1.Broadcasts S512x128
  shapeCasts_S2048x128_S8x256x128 : S2048x128.ShapeCasts S8x256x128
  shapeCasts_S8x256_S8x256x1 : S8x256.ShapeCasts S8x256x1
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  broadcasts_S1x256x1_S64x256x128 : S1x256x1.Broadcasts S64x256x128
  reduces_S64x256x128_S64x128 : S64x256x128.Reduces [1] S64x128
  broadcasts_S1x256x128_S64x256x128 : S1x256x128.Broadcasts S64x256x128
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  broadcasts_S64x1_S64x128 : S64x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .f32 = 32 ∨ (Rect.block (s := S2048x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S2048x128.size a
  hwx0_6 : ∀ i : grid0.Coords, EltTy.bits .f32 = 32 ∨ (Rect.block (s := S2048x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S2048x128.size a
  hwx0_7 : ∀ i : grid0.Coords, EltTy.bits .f32 = 32 ∨ (Rect.block (s := S2048x128) S512x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256x128.size a ≤ S8x256x256x128.size a
  hwx1_0 : ∀ i : grid1.Coords, EltTy.bits .f32 = 32 ∨ (Rect.block (s := S8x256x256x128) S1x64x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S8x256x1.size a
  hwx1_1 : ∀ i : grid1.Coords, EltTy.bits .f32 = 32 ∨ (Rect.block (s := S8x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x256x128.size a
  hwx1_2 : ∀ i : grid1.Coords, EltTy.bits .f32 = 32 ∨ (Rect.block (s := S8x256x128) S1x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1.size a ≤ S8x256x1.size a
  hwx1_3 : ∀ i : grid1.Coords, EltTy.bits .f32 = 32 ∨ (Rect.block (s := S8x256x1) S1x64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128.size a ≤ S8x256x128.size a
  hwx1_4 : ∀ i : grid1.Coords, EltTy.bits .f32 = 32 ∨ (Rect.block (s := S8x256x128) S1x64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x128.size a ≤ S8x256x128.size a
  hwx1_5 : ∀ i : grid1.Coords, EltTy.bits .f32 = 32 ∨ (Rect.block (s := S8x256x128) S1x64x128.size (cc1_transform_5 i) (hinb1_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1x64x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x64x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x128 : Shape := ⟨3, ![8, 256, 128]⟩
abbrev S8x256x256x128 : Shape := ⟨4, ![8, 256, 256, 128]⟩
abbrev S8x256 : Shape := ⟨2, ![8, 256]⟩
abbrev S128x128 : Shape := ⟨2, ![128, 128]⟩
abbrev S128 : Shape := ⟨1, ![128]⟩
abbrev S8x256x1 : Shape := ⟨3, ![8, 256, 1]⟩
abbrev S1x1x128 : Shape := ⟨3, ![1, 1, 128]⟩
abbrev S8x256x1x1 : Shape := ⟨4, ![8, 256, 1, 1]⟩
abbrev S8x1x256x1 : Shape := ⟨4, ![8, 1, 256, 1]⟩
abbrev S8x1x256x128 : Shape := ⟨4, ![8, 1, 256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S8x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x256x1, .f32⟩
  | .hbm, ⟨8, _⟩ => ⟨S8x256x128, .f32⟩
  | .hbm, ⟨9, _⟩ => ⟨S1x1x128, .f32⟩
  | .hbm, ⟨10, _⟩ => ⟨S8x256x128, .f32⟩
  | .hbm, ⟨11, _⟩ => ⟨S8x256x128, .f32⟩
  | .hbm, ⟨12, _⟩ => ⟨S8x256x128, .f32⟩
  | .hbm, ⟨13, _⟩ => ⟨S8x256x128, .f32⟩
  | .hbm, ⟨14, _⟩ => ⟨S8x256x1, .f32⟩
  | .hbm, ⟨15, _⟩ => ⟨S8x256x128, .f32⟩
  | .hbm, ⟨16, _⟩ => ⟨S1x1x128, .f32⟩
  | .hbm, ⟨17, _⟩ => ⟨S8x256x128, .f32⟩
  | .hbm, ⟨18, _⟩ => ⟨S8x256x128, .f32⟩
  | .hbm, ⟨19, _⟩ => ⟨S8x256x128, .f32⟩
  | .hbm, ⟨20, _⟩ => ⟨S8x256x128, .f32⟩
  | .hbm, ⟨21, _⟩ => ⟨S8x256x1x1, .f32⟩
  | .hbm, ⟨22, _⟩ => ⟨S8x256x256x128, .f32⟩
  | .hbm, ⟨23, _⟩ => ⟨S8x256x256x128, .f32⟩
  | .hbm, ⟨24, _⟩ => ⟨S8x1x256x1, .f32⟩
  | .hbm, ⟨25, _⟩ => ⟨S8x256x256x128, .f32⟩
  | .hbm, ⟨26, _⟩ => ⟨S8x256x256x128, .f32⟩
  | .hbm, ⟨27, _⟩ => ⟨S8x1x256x128, .f32⟩
  | .hbm, ⟨28, _⟩ => ⟨S8x256x256x128, .f32⟩
  | .hbm, ⟨29, _⟩ => ⟨S8x256x256x128, .f32⟩
  | .hbm, ⟨30, _⟩ => ⟨S_, .f32⟩
  | .hbm, ⟨31, _⟩ => ⟨S8x256x128, .f32⟩
  | .hbm, ⟨32, _⟩ => ⟨S_, .f32⟩
  | .hbm, ⟨33, _⟩ => ⟨S8x256x128, .f32⟩
  | .hbm, ⟨34, _⟩ => ⟨S_, .f32⟩
  | .hbm, ⟨35, _⟩ => ⟨S8x256x128, .f32⟩
  | .hbm, ⟨36, _⟩ => ⟨S8x256x128, .f32⟩
  | .hbm, ⟨37, _⟩ => ⟨S8x256x128, .f32⟩
  | .hbm, ⟨38, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S8x256_S8x256x1_0_1 : S8x256.BroadcastsInDim S8x256x1 (![0, 1] : Fin 2 → Fin S8x256x1.rank)
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S8x256x1_S8x256x128_0_1_2 : S8x256x1.BroadcastsInDim S8x256x128 (![0, 1, 2] : Fin 3 → Fin S8x256x128.rank)
  bcast_S8x256_S8x256x1x1_0_1 : S8x256.BroadcastsInDim S8x256x1x1 (![0, 1] : Fin 2 → Fin S8x256x1x1.rank)
  bcast_S8x256x1x1_S8x256x256x128_0_1_2_3 : S8x256x1x1.BroadcastsInDim S8x256x256x128 (![0, 1, 2, 3] : Fin 4 → Fin S8x256x256x128.rank)
  bcast_S8x256_S8x1x256x1_0_2 : S8x256.BroadcastsInDim S8x1x256x1 (![0, 2] : Fin 2 → Fin S8x1x256x1.rank)
  bcast_S8x1x256x1_S8x256x256x128_0_1_2_3 : S8x1x256x1.BroadcastsInDim S8x256x256x128 (![0, 1, 2, 3] : Fin 4 → Fin S8x256x256x128.rank)
  bcast_S8x256x128_S8x1x256x128_0_2_3 : S8x256x128.BroadcastsInDim S8x1x256x128 (![0, 2, 3] : Fin 3 → Fin S8x1x256x128.rank)
  bcast_S8x1x256x128_S8x256x256x128_0_1_2_3 : S8x1x256x128.BroadcastsInDim S8x256x256x128 (![0, 1, 2, 3] : Fin 4 → Fin S8x256x256x128.rank)
  reducesTo_S8x256x256x128_S8x256x128_d2 : S8x256x256x128.ReducesTo [2] S8x256x128
  h_S_ : 0 < S_.numel
  bcast_S_S8x256x128 : S_.BroadcastsInDim S8x256x128 (![] : Fin 0 → Fin S8x256x128.rank)
  dot_S8x256x128_S128x128_S8x256x128_2_1_01_0_n_n_wf : DotDims.WF S8x256x128 S128x128 S8x256x128 [2] [1] [0, 1] [0] [] []

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf

class Facts : Prop extends Facts₀ where

variable [Facts]
-- ==== Proof.Spec.lean ====
/-
  The gated, masked neighbour aggregation as ONE function of the seven argument arrays, over the extended reals.
  For a batch `b`, a destination node `i` and a feature `h`:

      layer Wu bu (b,i,h)  +  ( m(b,i) · Σ_j (g(b,i,j,h) · m(b,j)) · layer Wv bv (b,j,h) )
                               ÷ ( ε + m(b,i) · Σ_j g(b,i,j,h) · m(b,j) )

  where `layer W β (b,n,o) = (Σ_k x(b,n,k) · W(o,k) + β(o)) · m(b,n)` is a linear layer followed by the node mask,
  `g` the edge gate, `m` the node mask, `÷` the quotient of the extended reals and `ε` the value of the f32 word
  `0x1E3CE508` (the same word on both sides, never evaluated).  The destination mask stands OUTSIDE the two sums over the
  source nodes `j`: this is the form the tiled computation takes.  The plain formulation masks every edge by both of its
  end points inside the sums; the two agree wherever the arrays hold real numbers, by distributivity.
-/
import Idealize.ShloMosaic.PureOps.Ideal
import Idealize.ShloMosaic.Lib.ValueIdx

noncomputable section

open scoped BigOperators

namespace Cert.GatedAgg

open Idealize.ShloMosaic Idealize.ShloMosaic.ValueIdx

/-- Node features and the result: batch × node × feature. -/
abbrev Nodes : Type := FVec Ideal ⟨3, ![8, 256, 128]⟩ .f32
/-- Edge gates: batch × destination × source × feature. -/
abbrev Edges : Type := FVec Ideal ⟨4, ![8, 256, 256, 128]⟩ .f32
/-- The node mask: batch × node. -/
abbrev Mask : Type := FVec Ideal ⟨2, ![8, 256]⟩ .f32
/-- A layer's weights, output feature × input feature, and its bias. -/
abbrev Weights : Type := FVec Ideal ⟨2, ![128, 128]⟩ .f32
abbrev Bias : Type := FVec Ideal ⟨1, ![128]⟩ .f32

/-- The small positive number added to the denominator, as its f32 word. -/
abbrev eps : EReal := Ideal.ofBits .f32 0x1E3CE508#32

/-- A linear layer followed by the node mask, at node `n` of batch `b` and output feature `o`. -/
def layer (x : Nodes) (m : Mask) (W : Weights) (β : Bias) (b : Fin 8) (n : Fin 256) (o : Fin 128) : EReal :=
  ((∑ k : Fin 128, x (ix3 b n k) * W (ix2 o k)) + β (ix1 o)) * m (ix2 b n)

/-- The gate mass a destination node receives: the source-masked gates summed over the source nodes. -/
def gateMass (g : Edges) (m : Mask) (b : Fin 8) (i : Fin 256) (h : Fin 128) : EReal :=
  ∑ j : Fin 256, g (ix4 b i j h) * m (ix2 b j)

/-- The gated messages a destination node receives: each source node's second layer weighted by its masked gate. -/
def gatedSum (x : Nodes) (g : Edges) (m : Mask) (Wv : Weights) (bv : Bias) (b : Fin 8) (i : Fin 256) (h : Fin 128) : EReal :=
  ∑ j : Fin 256, (g (ix4 b i j h) * m (ix2 b j)) * layer x m Wv bv b j h

/-- The aggregation at one entry: the first layer plus the normalised gated messages, the destination mask outside
    the sums. -/
def agg (x : Nodes) (g : Edges) (m : Mask) (Wu : Weights) (bu : Bias) (Wv : Weights) (bv : Bias)
    (b : Fin 8) (i : Fin 256) (h : Fin 128) : EReal :=
  layer x m Wu bu b i h
    + Ideal.div (m (ix2 b i) * gatedSum x g m Wv bv b i h) (eps + m (ix2 b i) * gateMass g m b i h)

/-- Every entry of an array is a real number (neither infinity): what finiteness of an input means over the extended reals. -/
def IsReal {s : Shape} (v : FVec Ideal s .f32) : Prop := ∀ i : s.Idx, ∃ r : ℝ, v i = (r : EReal)

/-- The whole result array. -/
def aggArray (x : Nodes) (g : Edges) (m : Mask) (Wu : Weights) (bu : Bias) (Wv : Weights) (bv : Bias) : Nodes :=
  fun idx => agg x g m Wu bu Wv bv (idx 0) (idx 1) (idx 2)

end Cert.GatedAgg

end
-- ==== Proof.Algebra.lean ====
/-
  The algebraic law that joins the two arrangements of the gated, masked neighbour aggregation.

  The plain formulation masks every edge gate by both of its end points inside the sums over the source nodes:
      m_i · u  +  ( 0 + Σ_j ((g_j · m_i) · m_j) · (m_j · v_j) )  ÷  ( ε + (0 + Σ_j (g_j · m_i) · m_j) ).
  The tiled formulation keeps the destination mask m_i outside the two sums:
      u · m_i  +  ( m_i · Σ_j (g_j · m_j) · (v_j · m_j) )  ÷  ( ε + m_i · Σ_j g_j · m_j ).
  Over the extended reals multiplication does not distribute over addition at the infinities, so the two are equal
  only where the entries are real numbers.  There the numerators agree and the denominators agree, by distributivity
  and commutativity in ℝ, and the quotient is the same function applied to equal arguments.
-/
import proofs.«102665_j32633161515440_2_alg».proof.Proof.Spec

noncomputable section

open scoped BigOperators

namespace Cert.GatedAgg.Algebra

open Idealize.ShloMosaic

/-- The inclusion of the reals in the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row of a linear layer, Σ_k x_k · w_k + β, is a real number when its entries are. -/
theorem affine_isReal {K : Type} [Fintype K] (x w : K → EReal) (β : EReal)
    (hx : ∀ k, ∃ r : ℝ, x k = (r : EReal)) (hw : ∀ k, ∃ r : ℝ, w k = (r : EReal)) (hβ : ∃ r : ℝ, β = (r : EReal)) :
    ∃ r : ℝ, (∑ k, x k * w k) + β = (r : EReal) := by
  choose xr hxr using hx
  choose wr hwr using hw
  obtain ⟨βr, rfl⟩ := hβ
  refine ⟨(∑ k, xr k * wr k) + βr, ?_⟩
  simp only [hxr, hwr]
  rw [EReal.coe_add, coe_sum]
  simp only [EReal.coe_mul]

/-- The numerators: the destination mask comes out of the sum of the gated messages. -/
theorem numerator_eq {J : Type} [Fintype J] (mi : EReal) (g m v : J → EReal)
    (hmi : ∃ r : ℝ, mi = (r : EReal)) (hg : ∀ j, ∃ r : ℝ, g j = (r : EReal))
    (hm : ∀ j, ∃ r : ℝ, m j = (r : EReal)) (hv : ∀ j, ∃ r : ℝ, v j = (r : EReal)) :
    ∑ j, ((g j * mi) * m j) * (m j * v j) = mi * ∑ j, (g j * m j) * (v j * m j) := by
  obtain ⟨a, rfl⟩ := hmi
  choose gr hgr using hg
  choose mr hmr using hm
  choose vr hvr using hv
  simp only [hgr, hmr, hvr, ← EReal.coe_mul, ← coe_sum]
  refine congrArg _ ?_
  rw [Finset.mul_sum]
  refine Finset.sum_congr rfl fun j _ => ?_
  ring

/-- The denominators' sums: the destination mask comes out of the gate mass. -/
theorem mass_eq {J : Type} [Fintype J] (mi : EReal) (g m : J → EReal)
    (hmi : ∃ r : ℝ, mi = (r : EReal)) (hg : ∀ j, ∃ r : ℝ, g j = (r : EReal))
    (hm : ∀ j, ∃ r : ℝ, m j = (r : EReal)) :
    ∑ j, (g j * mi) * m j = mi * ∑ j, g j * m j := by
  obtain ⟨a, rfl⟩ := hmi
  choose gr hgr using hg
  choose mr hmr using hm
  simp only [hgr, hmr, ← EReal.coe_mul, ← coe_sum]
  refine congrArg _ ?_
  rw [Finset.mul_sum]
  refine Finset.sum_congr rfl fun j _ => ?_
  ring

/-- The law: the plain formulation equals the tiled one where the entries are real.  The quotient `q` and the small
    number `e` are the same on both sides and are never opened. -/
theorem gated_law {J : Type} [Fintype J] (q : EReal → EReal → EReal) (e mi u : EReal) (g m v : J → EReal)
    (hmi : ∃ r : ℝ, mi = (r : EReal)) (hg : ∀ j, ∃ r : ℝ, g j = (r : EReal))
    (hm : ∀ j, ∃ r : ℝ, m j = (r : EReal)) (hv : ∀ j, ∃ r : ℝ, v j = (r : EReal)) :
    mi * u + q (0 + ∑ j, ((g j * mi) * m j) * (m j * v j)) (e + (0 + ∑ j, (g j * mi) * m j))
      = u * mi + q (mi * ∑ j, (g j * m j) * (v j * m j)) (e + mi * ∑ j, g j * m j) := by
  rw [zero_add, zero_add, numerator_eq mi g m v hmi hg hm hv, mass_eq mi g m hmi hg hm, mul_comm mi u]

end Cert.GatedAgg.Algebra

end
-- ==== Proof.RefValue.lean ====
/-
  The reference side: the plain formulation of the gated, masked neighbour aggregation, read entry by entry out of
  the reference program's stages, is the aggregation function of the specification wherever the argument arrays hold real
  numbers.

  The reference computes Ux + (Σ_j eg · Vx_j) ÷ (ε + Σ_j eg) with Ux = m · (x Wuᵀ + bu), Vx = m · (x Wvᵀ + bv) and the
  edge gate masked by both end points, eg(b,i,j,h) = (g(b,i,j,h) · m(b,i)) · m(b,j).  Each stage of the program is read at an
  index; the broadcasts compose to coordinate selections, the two matrix products and the two sums over the source
  nodes are finite sums, and the two float constants are the zero word (the extended real 0) and the word of ε (kept as a
  word).  What remains differs from the specification only in where the destination mask stands, inside or outside the two
  sums, which is the law of the module Algebra.
-/
import proofs.«102665_j32633161515440_2_alg».proof.Proof.Gen.ReferenceIdeal.Read
import proofs.«102665_j32633161515440_2_alg».proof.Proof.Spec
import proofs.«102665_j32633161515440_2_alg».proof.Proof.Algebra
import Idealize.ShloMosaic.PureOps.Ideal.Laws
import Idealize.ShloMosaic.Lib.ValueIdx

noncomputable section

open scoped BigOperators

namespace Cert.GatedAgg.RefValue

open Idealize.ShloMosaic Idealize.ShloMosaic.ValueIdx Cert.ReferenceIdeal Cert.ReferenceIdeal.Read Cert.GatedAgg

/-! ## The reference's composed index functions, by coordinates

Every layout operation of the reference (a broadcast along new or unit axes) reads its operand at an index computed from
the result's index; composed along the program they pick coordinates out of the result's index, as follows. -/

/-- The mask broadcast over the features reads the mask at (batch, node). -/
theorem idx_mask_dst (b : Fin 8) (n : Fin 256) (h : Fin 128) :
    idx_main_v0 (idx_main_v5 (ix3 b n h)) = ix2 b n :=
  funext fun a => Fin.ext (by match a with | ⟨0, _⟩ => rfl | ⟨1, _⟩ => rfl)

/-- The second layer's mask broadcast reads the mask at (batch, node). -/
theorem idx_mask_src3 (b : Fin 8) (n : Fin 256) (h : Fin 128) :
    idx_main_v7 (idx_main_v12 (ix3 b n h)) = ix2 b n :=
  funext fun a => Fin.ext (by match a with | ⟨0, _⟩ => rfl | ⟨1, _⟩ => rfl)

/-- The first layer's bias broadcast reads the bias at the output feature. -/
theorem idx_bias_u (b : Fin 8) (n : Fin 256) (h : Fin 128) :
    idx_main_v2 (idx_main_v3 (ix3 b n h)) = ix1 h :=
  funext fun a => Fin.ext (by match a with | ⟨0, _⟩ => rfl)

/-- The second layer's bias broadcast reads the bias at the output feature. -/
theorem idx_bias_v (b : Fin 8) (n : Fin 256) (h : Fin 128) :
    idx_main_v9 (idx_main_v10 (ix3 b n h)) = ix1 h :=
  funext fun a => Fin.ext (by match a with | ⟨0, _⟩ => rfl)

/-- The first layer's product reads the node's features along the contracted axis … -/
theorem lidx_u (b : Fin 8) (n : Fin 256) (h : Fin 128) (k : Fin 128) :
    lidx_main_v1 (ix3 b n h) k = ix3 b n k :=
  funext fun a => Fin.ext (by match a with | ⟨0, _⟩ => rfl | ⟨1, _⟩ => rfl | ⟨2, _⟩ => rfl)

/-- … and the weights' row of the output feature. -/
theorem ridx_u (b : Fin 8) (n : Fin 256) (h : Fin 128) (k : Fin 128) :
    ridx_main_v1 (ix3 b n h) k = ix2 h k :=
  funext fun a => Fin.ext (by match a with | ⟨0, _⟩ => rfl | ⟨1, _⟩ => rfl)

/-- The second layer's product reads the node's features along the contracted axis … -/
theorem lidx_v (b : Fin 8) (n : Fin 256) (h : Fin 128) (k : Fin 128) :
    lidx_main_v8 (ix3 b n h) k = ix3 b n k :=
  funext fun a => Fin.ext (by match a with | ⟨0, _⟩ => rfl | ⟨1, _⟩ => rfl | ⟨2, _⟩ => rfl)

/-- … and the weights' row of the output feature. -/
theorem ridx_v (b : Fin 8) (n : Fin 256) (h : Fin 128) (k : Fin 128) :
    ridx_main_v8 (ix3 b n h) k = ix2 h k :=
  funext fun a => Fin.ext (by match a with | ⟨0, _⟩ => rfl | ⟨1, _⟩ => rfl)

/-- The sum of the gated messages over the source nodes reads the edge array at (batch, destination, source, feature). -/
theorem idx_sum_num (b : Fin 8) (n : Fin 256) (h : Fin 128) (j : Fin 256) :
    idx_main_v23 (ix3 b n h) j = ix4 b n j h :=
  funext fun a => Fin.ext (by match a with | ⟨0, _⟩ => rfl | ⟨1, _⟩ => rfl | ⟨2, _⟩ => rfl | ⟨3, _⟩ => rfl)

/-- The gate mass's sum over the source nodes reads the edge array at (batch, destination, source, feature). -/
theorem idx_sum_den (b : Fin 8) (n : Fin 256) (h : Fin 128) (j : Fin 256) :
    idx_main_v24 (ix3 b n h) j = ix4 b n j h :=
  funext fun a => Fin.ext (by match a with | ⟨0, _⟩ => rfl | ⟨1, _⟩ => rfl | ⟨2, _⟩ => rfl | ⟨3, _⟩ => rfl)

/-- On an edge, the destination mask is the mask at (batch, destination) … -/
theorem idx_edge_dst (b : Fin 8) (n j : Fin 256) (h : Fin 128) :
    idx_main_v14 (idx_main_v15 (ix4 b n j h)) = ix2 b n :=
  funext fun a => Fin.ext (by match a with | ⟨0, _⟩ => rfl | ⟨1, _⟩ => rfl)

/-- … the source mask is the mask at (batch, source) … -/
theorem idx_edge_src (b : Fin 8) (n j : Fin 256) (h : Fin 128) :
    idx_main_v17 (idx_main_v18 (ix4 b n j h)) = ix2 b j :=
  funext fun a => Fin.ext (by match a with | ⟨0, _⟩ => rfl | ⟨1, _⟩ => rfl)

/-- … and the message is the second layer at (batch, source, feature). -/
theorem idx_edge_msg (b : Fin 8) (n j : Fin 256) (h : Fin 128) :
    idx_main_v20 (idx_main_v21 (ix4 b n j h)) = ix3 b j h :=
  funext fun a => Fin.ext (by match a with | ⟨0, _⟩ => rfl | ⟨1, _⟩ => rfl | ⟨2, _⟩ => rfl)

/-! ## The reference, entry by entry, is the aggregation -/

/-- The reference program's result is the aggregation of the seven argument arrays, where their entries are real numbers.
    Read at (batch b, destination n, feature h), the reference is
        m(b,n) · (Σ_k x·Wu + bu)  +  (0 + Σ_j ((g · m(b,n)) · m(b,j)) · (m(b,j) · (Σ_k x·Wv + bv)))  ÷  (ε + (0 + Σ_j (g · m(b,n)) · m(b,j))),
    the destination mask inside both sums; the law of the real numbers moves it outside. -/
theorem ref_eq (x0 : Nodes) (x1 : Edges) (x2 : Mask) (x3 : Weights) (x4 : Bias) (x5 : Weights) (x6 : Bias)
    (h0 : IsReal x0) (h1 : IsReal x1) (h2 : IsReal x2) (h3 : IsReal x3) (h4 : IsReal x4) (h5 : IsReal x5) (h6 : IsReal x6) :
    Cert.ReferenceIdeal.Read.val_main_v28 (F := Ideal) x0 x1 x2 x3 x4 x5 x6 = aggArray x0 x1 x2 x3 x4 x5 x6 := by
  funext i
  obtain ⟨b, n, h, rfl⟩ : ∃ (b : Fin 8) (n : Fin 256) (h : Fin 128), i = ix3 b n h := ⟨i 0, i 1, i 2, eq_ix3 i⟩
  show _ = agg x0 x1 x2 x3 x4 x5 x6 b n h
  simp only [val_main_v28_apply, val_main_v6_apply, val_main_v27_apply, val_main_v23_apply, val_main_v26_apply,
    val_main_v24_apply, val_main_v25_apply, val_main_v22_apply, val_main_v19_apply, val_main_v16_apply,
    val_main_v21_apply, val_main_v20_apply, val_main_v18_apply, val_main_v17_apply, val_main_v15_apply,
    val_main_v14_apply, val_main_v13_apply, val_main_v12_apply, val_main_v11_apply, val_main_v10_apply,
    val_main_v9_apply, val_main_v8_apply, val_main_v7_apply, val_main_v5_apply, val_main_v4_apply,
    val_main_v3_apply, val_main_v2_apply, val_main_v1_apply, val_main_v0_apply,
    val_main_cst_apply, val_main_cst_0_apply, val_main_cst_1_apply]
  simp only [idx_sum_num, idx_sum_den, idx_edge_dst, idx_edge_src, idx_edge_msg, idx_mask_dst, idx_mask_src3,
    idx_bias_u, idx_bias_v, lidx_u, ridx_u, lidx_v, ridx_v,
    Ideal.addf_def, Ideal.mulf_def, Ideal.hostDivf_def, Ideal.ofBits_def, Ideal.ofBits_zero_f32]
  unfold agg layer gatedSum gateMass layer
  exact Algebra.gated_law Ideal.div eps (x2 (ix2 b n))
    ((∑ k : Fin 128, x0 (ix3 b n k) * x3 (ix2 h k)) + x4 (ix1 h))
    (fun j : Fin 256 => x1 (ix4 b n j h)) (fun j : Fin 256 => x2 (ix2 b j))
    (fun j : Fin 256 => (∑ k : Fin 128, x0 (ix3 b j k) * x5 (ix2 h k)) + x6 (ix1 h))
    (h2 _) (fun j => h1 _) (fun j => h2 _)
    (fun j => Algebra.affine_isReal _ _ _ (fun k => h0 _) (fun k => h5 _) (h6 _))

end Cert.GatedAgg.RefValue

end
-- ==== Proof.Finite.lean ====
/-
  Finiteness of the seven argument arrays, read off the certificate's precondition.

  The precondition is the boolean  AND_k  all( |x_k| < +inf )  over the seven float arrays, stated to be the
  one-bit word 1.  A conjunction of one-bit words is 1 exactly when each is; an "all" that is 1 had a 1 at every index;
  and over the extended reals  max x (-x) < ⊤  excludes both infinities, so the entry is the image of a real number.
-/
import proofs.«102665_j32633161515440_2_alg».proof.Proof.Spec
import proofs.«102665_j32633161515440_2_alg».proof.Defs
import Idealize.ShloMosaic.Lib.ReduceAll

noncomputable section

namespace Cert.GatedAgg.Finite

open Idealize.ShloMosaic Idealize.ShloMosaic.ValueIdx Cert.GatedAgg

/-- The scalar shape has a single index. -/
instance : Subsingleton Cert.Pre_finite_inputs.S_.Idx := ⟨fun a b => funext fun d => d.elim0⟩

/-- The f32 word `0x7F800000` denotes `+∞`. -/
theorem inf_word : Ideal.ofBits .f32 0x7F800000#32 = (⊤ : EReal) := by simp [Ideal.ofBits, Ideal.ieee]

/-- One entry: if the comparison `|x| < +∞` came out 1, then `x` is a real number. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One array: if `all(|x| < +∞)`, a reduction by `and` over every axis, came out 1, every entry is real. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) : IsReal x := by
  intro i
  have hi := Host.reduce_andi_all _ _ hr hu ix0 e i
  exact real_of_abs_lt_inf (x i) hi

/-- The precondition's boolean being 1 makes each of the seven arrays real-valued. -/
theorem of_fn [Cert.Pre_finite_inputs.Facts] (x0 : Nodes) (x1 : Edges) (x2 : Mask) (x3 : Weights) (x4 : Bias)
    (x5 : Weights) (x6 : Bias)
    (h : Cert.Pre_finite_inputs.fn (F := Ideal) x0 x1 x2 x3 x4 x5 x6 = (fun _ => 1#1)) :
    IsReal x0 ∧ IsReal x1 ∧ IsReal x2 ∧ IsReal x3 ∧ IsReal x4 ∧ IsReal x5 ∧ IsReal x6 := by
  have h0 := congrFun h ix0
  dsimp only [Cert.Pre_finite_inputs.fn, Cert.Pre_finite_inputs.fn_part1] at h0
  have split : ∀ a b : IVec Cert.Pre_finite_inputs.S_ 1, andi a b ix0 = 1#1 → a ix0 = 1#1 ∧ b ix0 = 1#1 :=
    fun a b e => IntOp.andi_eq_one.1 e
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  exact ⟨isReal_of_all x0 _ _ _ e0, isReal_of_all x1 _ _ _ e1, isReal_of_all x2 _ _ _ e2, isReal_of_all x3 _ _ _ e3,
    isReal_of_all x4 _ _ _ e4, isReal_of_all x5 _ _ _ e5, isReal_of_all x6 _ _ _ e6⟩

/-- At the idealized kernel's memory: under the certificate's precondition the seven argument arrays of every device
    are real-valued. -/
theorem of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6)) :=
  of_fn _ _ _ _ _ _ _ (hpre c)

end Cert.GatedAgg.Finite

end
-- ==== Proof.LayerRegion.lean ====
/-
  The first region: the two masked linear layers, computed 512 rows of the flattened (batch × node) axis at a time.
  At a grid point `t` the body is handed the rows' features (a 512 × 128 block), their mask column (512 × 1), the two
  transposed weight matrices and the two bias rows (the same blocks at every point), and leaves in each of its two
  output buffers the block  (rows · Wᵀ + bias) · mask  of one layer.  This module states what each output buffer
  holds after the body as a function of the input blocks, proves the body's triple against that, and packages the
  region's proof data: after the body every input buffer still holds its block and each output buffer holds the
  layer's block; nothing is owed to another core and nothing is kept from one point to the next.
-/
import proofs.«102665_j32633161515440_2_alg».proof.Proof.Gen.KernelIdeal.Launch
import proofs.«102665_j32633161515440_2_alg».proof.Proof.Gen.KernelIdeal.Skeleton
import proofs.«102665_j32633161515440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LayerRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or not
    (where it did not, the block index has not moved since the point before). -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the pipeline fetched it there or not
    (where it did not, the block index has not moved since the point before). -/
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the pipeline fetched it there or not
    (where it did not, the block index has not moved since the point before). -/
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether the pipeline fetched it there or not
    (where it did not, the block index has not moved since the point before). -/
theorem found3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether the pipeline fetched it there or not
    (where it did not, the block index has not moved since the point before). -/
theorem found4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, whether the pipeline fetched it there or not
    (where it did not, the block index has not moved since the point before). -/
theorem found5_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body leaves in each output buffer -/

/-- The whole-buffer rectangles the body loads and stores through. -/
abbrev rRows : Rect S512x128 := Rect.unit (s := S512x128) ![0, 0] S512x128.size inb_S512x128_S512x128_0_0
abbrev rCol : Rect S512x1 := Rect.unit (s := S512x1) ![0, 0] S512x1.size inb_S512x1_S512x1_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- The first layer's block: the one store into the first output buffer, over the rows, the mask column, the first
    weight matrix and the first bias row. -/
def firstLayer (x : Vec F S512x128 .f32) (mk : Vec F S512x1 .f32) (w : Vec F S128x128 .f32) (b : Vec F S1x128 .f32) : Vec F S512x128 .f32 :=
  View.canon [⟨rRows, k0_pay3 (View.ld x rRows) (View.ld mk rCol) (View.ld w rMat) (View.ld b rRow)⟩]

/-- The second layer's block, likewise, over the second weight matrix and bias row. -/
def secondLayer (x : Vec F S512x128 .f32) (mk : Vec F S512x1 .f32) (w : Vec F S128x128 .f32) (b : Vec F S1x128 .f32) : Vec F S512x128 .f32 :=
  View.canon [⟨rRows, k0_pay4 (View.ld x rRows) (View.ld mk rCol) (View.ld w rMat) (View.ld b rRow)⟩]

/-- One whole-buffer store covers the buffer. -/
theorem cover_rows (p0 : Vec F S512x128 .f32) (y : S512x128.Idx) :
    ∃ pc ∈ ([⟨rRows, p0⟩] : List (View.Piece (Elt F) S512x128 .f32)), y ∈ pc.1.set :=
  View.cover_of_tiled [⟨rRows, p0⟩] S512x128.size (by rfl) y

/-! ## The body's triple -/

set_option maxHeartbeats 1000000 in
/-- The body on whole staging memrefs, the six inputs' at read contents and the two outputs' at anything, runs to the
    continuation holding the inputs' as they were and the outputs' at the two layers' blocks. -/
theorem sound_kernel (c : Dev nD) (E : Set ℕ) (i : grid0.Coords)
    (arg1 : Memref sig .tc .vmem S512x128 .f32) (harg1 : arg1.IsWhole) (arg2 : Memref sig .tc .vmem S512x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S512x128 .f32) (harg7 : arg7.IsWhole) (arg8 : Memref sig .tc .vmem S512x128 .f32) (harg8 : arg8.IsWhole)
    (x0 : Vec F S512x128 .f32) (x1 : Vec F S512x1 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (firstLayer x0 x1 x2 x3) ∗ owns (c : Thread nD τ) arg8 fullShare (secondLayer x0 x1 x4 x5)) -∗ K ⟨⟩))
      ⊢ wp frame (wpE (defs₀ (F := F)) Variants.none c none) E (cc0__uv_kernel i arg1 harg1 arg2 harg2 arg3 harg3 arg4 harg4 arg5 harg5 arg6 harg6 arg7 harg7 arg8 harg8) K := by
  simp only [cc0__uv_kernel_eq_skeleton]; unfold cc0__uv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The region's proof data -/

/-- The proof data of the first region on core `c`: the arrays as the region finds them; after the body at point `t`
    each input's buffer at its block and each output's at its layer's block of the input blocks; nothing carried
    between points beyond the buffers no window stages and the generator register; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => firstLayer (blk V c 0 t) (blk V c 1 t) (blk V c 2 t) (blk V c 3 t)
    | ⟨7, _⟩ => secondLayer (blk V c 0 t) (blk V c 1 t) (blk V c 4 t) (blk V c 5 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) :
    (dat V c).after 6 t = firstLayer (blk V c 0 t) (blk V c 1 t) (blk V c 2 t) (blk V c 3 t) := by dsimp only [dat]
theorem after_7 (c : Dev nD) (t : Fin cfg0.N) :
    (dat V c).after 7 t = secondLayer (blk V c 0 t) (blk V c 1 t) (blk V c 4 t) (blk V c 5 t) := by dsimp only [dat]

/-- Each input's current staging buffer holds its block at every point. -/
theorem found_0 (c : Dev nD) (t : Fin cfg0.N) (d) : (dat V c).before 0 t d = blk V c 0 t := found0_of V (dat V c) (A_eq V c 0) (after_0 V c) t d
theorem found_1 (c : Dev nD) (t : Fin cfg0.N) (d) : (dat V c).before 1 t d = blk V c 1 t := found1_of V (dat V c) (A_eq V c 1) (after_1 V c) t d
theorem found_2 (c : Dev nD) (t : Fin cfg0.N) (d) : (dat V c).before 2 t d = blk V c 2 t := found2_of V (dat V c) (A_eq V c 2) (after_2 V c) t d
theorem found_3 (c : Dev nD) (t : Fin cfg0.N) (d) : (dat V c).before 3 t d = blk V c 3 t := found3_of V (dat V c) (A_eq V c 3) (after_3 V c) t d
theorem found_4 (c : Dev nD) (t : Fin cfg0.N) (d) : (dat V c).before 4 t d = blk V c 4 t := found4_of V (dat V c) (A_eq V c 4) (after_4 V c) t d
theorem found_5 (c : Dev nD) (t : Fin cfg0.N) (d) : (dat V c).before 5 t d = blk V c 5 t := found5_of V (dat V c) (A_eq V c 5) (after_5 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.LayerRegion

end
-- ==== Proof.AggRegion.lean ====
/-
  The second region: the gated neighbour aggregation, 64 destination nodes of one batch at a time.  At a grid point
  the body is handed the destination nodes' edge gates against every source node (a 1 × 64 × 256 × 128 block), the
  batch's mask as a column over the source nodes (1 × 256 × 1), the batch's second layer (1 × 256 × 128), the
  destination nodes' mask column (1 × 64 × 1) and their first layer (1 × 64 × 128), and leaves in its output buffer
  the block  first layer + (mask · Σ_j gate·mask_j·second layer_j) ÷ (ε + mask · Σ_j gate·mask_j).  This module states
  what the output buffer holds after the body as a function of the input blocks, proves the body's triple against
  that, and packages the region's proof data.
-/
import proofs.«102665_j32633161515440_2_alg».proof.Proof.Gen.KernelIdeal.Launch
import proofs.«102665_j32633161515440_2_alg».proof.Proof.Gen.KernelIdeal.Skeleton
import proofs.«102665_j32633161515440_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or not. -/
theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the pipeline fetched it there or not. -/
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the pipeline fetched it there or not. -/
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether the pipeline fetched it there or not. -/
theorem found3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether the pipeline fetched it there or not. -/
theorem found4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output buffer -/

/-- The whole-buffer rectangles the body loads and stores through. -/
abbrev rGates : Rect S1x64x256x128 := Rect.unit (s := S1x64x256x128) ![0, 0, 0, 0] S1x64x256x128.size inb_S1x64x256x128_S1x64x256x128_0_0_0_0
abbrev rSrcMask : Rect S1x256x1 := Rect.unit (s := S1x256x1) ![0, 0, 0] S1x256x1.size inb_S1x256x1_S1x256x1_0_0_0
abbrev rSrcLayer : Rect S1x256x128 := Rect.unit (s := S1x256x128) ![0, 0, 0] S1x256x128.size inb_S1x256x128_S1x256x128_0_0_0
abbrev rDstMask : Rect S1x64x1 := Rect.unit (s := S1x64x1) ![0, 0, 0] S1x64x1.size inb_S1x64x1_S1x64x1_0_0_0
abbrev rDst : Rect S1x64x128 := Rect.unit (s := S1x64x128) ![0, 0, 0] S1x64x128.size inb_S1x64x128_S1x64x128_0_0_0

/-- The aggregation's block: the one store into the output buffer, over the gates, the source mask column, the second
    layer, the destination mask column and the first layer. -/
def aggBlock (g : Vec F S1x64x256x128 .f32) (mj : Vec F S1x256x1 .f32) (v : Vec F S1x256x128 .f32) (mi : Vec F S1x64x1 .f32)
    (u : Vec F S1x64x128 .f32) : Vec F S1x64x128 .f32 :=
  View.canon [⟨rDst, k1_pay1 (View.ld g rGates) (View.ld mj rSrcMask) (View.ld v rSrcLayer) (View.ld mi rDstMask) (View.ld u rDst)⟩]

/-- One whole-buffer store covers the buffer. -/
theorem cover_out (p0 : Vec F S1x64x128 .f32) (y : S1x64x128.Idx) :
    ∃ pc ∈ ([⟨rDst, p0⟩] : List (View.Piece (Elt F) S1x64x128 .f32)), y ∈ pc.1.set :=
  View.cover_of_tiled [⟨rDst, p0⟩] S1x64x128.size (by rfl) y

/-! ## The body's triple -/

set_option maxHeartbeats 1000000 in
/-- The body on whole staging memrefs, the five inputs' at read contents and the output's at anything, runs to the
    continuation holding the inputs' as they were and the output's at the aggregation's block. -/
theorem sound_kernel (c : Dev nD) (E : Set ℕ) (i : grid1.Coords)
    (arg2 : Memref sig .tc .vmem S1x64x256x128 .f32) (harg2 : arg2.IsWhole) (arg3 : Memref sig .tc .vmem S1x256x1 .f32) (harg3 : arg3.IsWhole)
    (arg4 : Memref sig .tc .vmem S1x256x128 .f32) (harg4 : arg4.IsWhole) (arg5 : Memref sig .tc .vmem S1x64x1 .f32) (harg5 : arg5.IsWhole)
    (arg6 : Memref sig .tc .vmem S1x64x128 .f32) (harg6 : arg6.IsWhole) (arg7 : Memref sig .tc .vmem S1x64x128 .f32) (harg7 : arg7.IsWhole)
    (x0 : Vec F S1x64x256x128 .f32) (x1 : Vec F S1x256x1 .f32) (x2 : Vec F S1x256x128 .f32) (x3 : Vec F S1x64x1 .f32)
    (x4 : Vec F S1x64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (aggBlock x0 x1 x2 x3 x4)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- The proof data of the second region on core `c`: the arrays as the region finds them; after the body at point `t`
    each input's buffer at its block and the output's at the aggregation's block of the input blocks; nothing carried
    between points; nothing owed.  The mask array is handed to the region twice — once windowed by source nodes, once by
    destination nodes — so the two windows hold it at the two halves of the full share; every other input at the full share. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => aggBlock (blk V c 0 t) (blk V c 1 t) (blk V c 2 t) (blk V c 3 t) (blk V c 4 t)
  Φ _ := Pipeline.ΦA spec1 c
  q w := match w with
    | ⟨1, _⟩ => fullShare.left
    | ⟨3, _⟩ => fullShare.right
    | _ => fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = aggBlock (blk V c 0 t) (blk V c 1 t) (blk V c 2 t) (blk V c 3 t) (blk V c 4 t) := by dsimp only [dat]

/-- Each input's current staging buffer holds its block at every point. -/
theorem found_0 (c : Dev nD) (t : Fin cfg1.N) (d) : (dat V c).before 0 t d = blk V c 0 t := found0_of V (dat V c) (A_eq V c 0) (after_0 V c) t d
theorem found_1 (c : Dev nD) (t : Fin cfg1.N) (d) : (dat V c).before 1 t d = blk V c 1 t := found1_of V (dat V c) (A_eq V c 1) (after_1 V c) t d
theorem found_2 (c : Dev nD) (t : Fin cfg1.N) (d) : (dat V c).before 2 t d = blk V c 2 t := found2_of V (dat V c) (A_eq V c 2) (after_2 V c) t d
theorem found_3 (c : Dev nD) (t : Fin cfg1.N) (d) : (dat V c).before 3 t d = blk V c 3 t := found3_of V (dat V c) (A_eq V c 3) (after_3 V c) t d
theorem found_4 (c : Dev nD) (t : Fin cfg1.N) (d) : (dat V c).before 4 t d = blk V c 4 t := found4_of V (dat V c) (A_eq V c 4) (after_4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3, found_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.AggRegion

end
-- ==== Proof.Fold.lean ====
/-
  The buffers' contents followed through @main, boundary by boundary: six host operations (the flattening reshapes and
  the two transposes), the first region, three host reshapes, the second region.  A host stretch applies its
  operations; the first region leaves its two output arrays at what its write-backs fold to and every other buffer as
  found; the second region changes only the result array (its other arrays are inputs, never written).  No stretch
  writes an argument, so each argument's buffer walks back through the fold to its launch contents.
-/
import proofs.«102665_j32633161515440_2_alg».proof.Proof.LayerRegion
import proofs.«102665_j32633161515440_2_alg».proof.Proof.AggRegion
import proofs.«102665_j32633161515440_2_alg».proof.Proof.Gen.KernelIdeal.Regions

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (LayerRegion.dat (V1 m) c).arrAt w cfg0.N
theorem W2_arr (c : Dev nD) (w : Fin cfg0.W) :
    W2 m c (Proc.devRef .tc (Pipeline.arrRef spec0 w)) = (LayerRegion.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (LayerRegion.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: the result array at what the pipeline leaves, every other buffer as entered (its
    other arrays are inputs, never written). -/
def W4 (c : Dev nD) : Valuation τ sig (Elt F) :=
  Function.update (W3 m c) (Proc.devRef .tc main_v10) ((AggRegion.dat (V3 m) c).arrAt 5 cfg1.N)
theorem W4_result (c : Dev nD) : W4 m c (Proc.devRef .tc main_v10) = (AggRegion.dat (V3 m) c).arrAt 5 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

end Cert.KernelIdeal.Fold

end
-- ==== Proof.WholeRun.lean ====
/-
  The whole run of @main.  Each region enters the pipeline's protocol from "every unscoped buffer at the stretch's entry
  contents, the generator register somewhere, nothing owed" and leaves it at the same with the exit contents: on entry
  the windows' arrays are taken out of the unscoped buffers, on exit they are put back at what the write-backs left.  The
  second region is handed the mask array twice — windowed by source nodes and by destination nodes — so on entry the
  mask's buffer is split into its two half shares, one per window, and on exit the halves are joined again; the array is
  an input of both windows and ends as it was found.  The conclusion: every weakly fair execution of @main terminates
  without a fault and ends with every unscoped buffer at the last boundary's contents — the arguments as launched, the
  result at the second region's folded write-backs.
-/
import proofs.«102665_j32633161515440_2_alg».proof.Proof.Fold

set_option maxRecDepth 16384

noncomputable section

namespace Cert.KernelIdeal.WholeRun

open Cert.KernelIdeal Cert.KernelIdeal.Gen Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => LayerRegion.dat (V1 m) c
  | ⟨1, _⟩ => fun c => AggRegion.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register somewhere. -/
abbrev Tₙ (c : Dev nD) : sProp 𝕄 := iprop(StableHlo.held (c : Thread nD τ) (Pipeline.ucRefs τ sig) (W4 m c) ∗ ∃ r, prngReg c r)

/-! ## The second region's entry and exit: the mask's buffer split in two and joined again -/

/-- The second region's windowed arrays as one points-to per window, each over its whole buffer at the window's share. -/
theorem arrays_windows (c : Dev nD) (G : (w : Fin cfg1.W) → Buf (Elt F) ((cfg1.win w).arr.view.loc (c : Thread nD τ))) :
    (AggRegion.dat (V3 m) c).arrays G
      = bigSep Finset.univ fun w => ((((c : Thread nD τ).loc (Pipeline.arrRef spec1 w)) ↦{(AggRegion.dat (V3 m) c).share w} G w : sProp 𝕄)) := by
  unfold Pipeline.Dat.arrays
  exact bigSep_congr fun w _ => by rw [(arr_whole1 w).set_eq_univ]

theorem share_0 (c : Dev nD) : (AggRegion.dat (V3 m) c).share 0 = fullShare := rfl
theorem share_1 (c : Dev nD) : (AggRegion.dat (V3 m) c).share 1 = fullShare.left := rfl
theorem share_2 (c : Dev nD) : (AggRegion.dat (V3 m) c).share 2 = fullShare := rfl
theorem share_3 (c : Dev nD) : (AggRegion.dat (V3 m) c).share 3 = fullShare.right := rfl
theorem share_4 (c : Dev nD) : (AggRegion.dat (V3 m) c).share 4 = fullShare := rfl
theorem share_5 (c : Dev nD) : (AggRegion.dat (V3 m) c).share 5 = fullShare := rfl

set_option maxHeartbeats 1000000 in
set_option backward.isDefEq.respectTransparency.types false in
theorem entry_split (c : Dev nD) : (unscopedBufs c (V3 m c) : sProp 𝕄)
    ⊢ iprop((pdats m 1 c).arrays ((pdats m 1 c).arrAt · 0) ∗ Pipeline.unscopedRest (Ix := Unit) (Name := ℕ) (U := UR sig nD τ) (Lvl := ℕ) spec1 c (V3 m c)) := by
  rw [Pipeline.unscopedBufs_split₀ (Ix := Unit) (Name := ℕ) (U := UR sig nD τ) (Lvl := ℕ) cfgs 1 (fun w => winFacts₀1.arr_unscoped w) c (V3 m c)]
  refine sep_mono ?_ .rfl
  show _ ⊢ (AggRegion.dat (V3 m) c).arrays ((AggRegion.dat (V3 m) c).arrAt · 0)
  unfold Pipeline.arrBufs
  rw [arrays_windows, show (bigSep (Finset.univ.image (Pipeline.arrRef (cfgs 1).spec)) fun b : Ref sig .tc => (((c : Thread nD τ).loc b) ↦{fullShare} V3 m c b : sProp 𝕄))
      = iprop((((c : Thread nD τ).loc main_arg1) ↦{fullShare} V3 m c main_arg1) ∗ (((c : Thread nD τ).loc main_v9) ↦{fullShare} V3 m c main_v9)
          ∗ (((c : Thread nD τ).loc main_v8) ↦{fullShare} V3 m c main_v8) ∗ (((c : Thread nD τ).loc main_v7) ↦{fullShare} V3 m c main_v7)
          ∗ (((c : Thread nD τ).loc main_v10) ↦{fullShare} V3 m c main_v10))
      from bigSep_eq_bigSepL_of_eq [main_arg1, main_v9, main_v8, main_v7, main_v10] (by decide) (by decide) _, bigSep_W1, share_0, share_1, share_2, share_3, share_4, share_5]
  show _ ⊢ iprop((((c : Thread nD τ).loc main_arg1) ↦{fullShare} V3 m c main_arg1) ∗ (((c : Thread nD τ).loc main_v9) ↦{fullShare.left} V3 m c main_v9)
      ∗ (((c : Thread nD τ).loc main_v8) ↦{fullShare} V3 m c main_v8) ∗ (((c : Thread nD τ).loc main_v9) ↦{fullShare.right} V3 m c main_v9)
      ∗ (((c : Thread nD τ).loc main_v7) ↦{fullShare} V3 m c main_v7) ∗ (((c : Thread nD τ).loc main_v10) ↦{fullShare} V3 m c main_v10))
  iintro ⟨H1, H9, H8, H7, H10⟩
  ihave H9' := (pointsTo_share (PosShare.mem_left_op_right fullShare)).1 $$ H9
  icases H9' with ⟨H9l, H9r⟩
  isplitl [H1]; · iexact H1
  isplitl [H9l]; · iexact H9l
  isplitl [H8]; · iexact H8
  isplitl [H9r]; · iexact H9r
  isplitl [H7]; · iexact H7
  iexact H10
set_option maxHeartbeats 1000000 in
set_option backward.isDefEq.respectTransparency.types false in
theorem exit_join (c : Dev nD) : iprop((pdats m 1 c).arrays ((pdats m 1 c).arrAt · cfg1.N) ∗ Pipeline.unscopedRest (Ix := Unit) (Name := ℕ) (U := UR sig nD τ) (Lvl := ℕ) spec1 c (V3 m c))
    ⊢ (unscopedBufs c (V4 m c) : sProp 𝕄) := by
  rw [Pipeline.unscopedBufs_split₀ (Ix := Unit) (Name := ℕ) (U := UR sig nD τ) (Lvl := ℕ) cfgs 1 (fun w => winFacts₀1.arr_unscoped w) c (V4 m c)]
  refine BI.sep_mono ?_ ?_
  swap
  · -- the buffers no window names: the region changes none of them
    unfold Pipeline.unscopedRest
    refine Entails.of_eq (bigSep_congr fun b hb => ?_)
    have hne : b ≠ main_v10 := fun e => (Finset.mem_sdiff.mp hb).2 (Finset.mem_image.mpr ⟨5, Finset.mem_univ _, e ▸ rfl⟩)
    rw [show V4 m c b = V3 m c b from W4_of_ne m c b hne]
  show (AggRegion.dat (V3 m) c).arrays ((AggRegion.dat (V3 m) c).arrAt · cfg1.N) ⊢ _
  unfold Pipeline.arrBufs
  rw [arrays_windows, show (bigSep (Finset.univ.image (Pipeline.arrRef (cfgs 1).spec)) fun b : Ref sig .tc => (((c : Thread nD τ).loc b) ↦{fullShare} V4 m c b : sProp 𝕄))
      = iprop((((c : Thread nD τ).loc main_arg1) ↦{fullShare} V4 m c main_arg1) ∗ (((c : Thread nD τ).loc main_v9) ↦{fullShare} V4 m c main_v9)
          ∗ (((c : Thread nD τ).loc main_v8) ↦{fullShare} V4 m c main_v8) ∗ (((c : Thread nD τ).loc main_v7) ↦{fullShare} V4 m c main_v7)
          ∗ (((c : Thread nD τ).loc main_v10) ↦{fullShare} V4 m c main_v10))
      from bigSep_eq_bigSepL_of_eq [main_arg1, main_v9, main_v8, main_v7, main_v10] (by decide) (by decide) _, bigSep_W1, share_0, share_1, share_2, share_3, share_4, share_5,
    show V4 m c main_arg1 = V3 m c main_arg1 from W4_of_ne m c main_arg1 (by decide),
    show V4 m c main_v9 = V3 m c main_v9 from W4_of_ne m c main_v9 (by decide),
    show V4 m c main_v8 = V3 m c main_v8 from W4_of_ne m c main_v8 (by decide),
    show V4 m c main_v7 = V3 m c main_v7 from W4_of_ne m c main_v7 (by decide),
    show V4 m c main_v10 = (AggRegion.dat (V3 m) c).arrAt 5 cfg1.N from W4_result m c,
    (AggRegion.dat (V3 m) c).arrAt_in 0 rfl, (AggRegion.dat (V3 m) c).arrAt_in 1 rfl, (AggRegion.dat (V3 m) c).arrAt_in 2 rfl,
    (AggRegion.dat (V3 m) c).arrAt_in 3 rfl, (AggRegion.dat (V3 m) c).arrAt_in 4 rfl,
    AggRegion.A_eq (V3 m) c 0, AggRegion.A_eq (V3 m) c 1, AggRegion.A_eq (V3 m) c 2, AggRegion.A_eq (V3 m) c 3, AggRegion.A_eq (V3 m) c 4]
  iintro ⟨H1, H9l, H8, H9r, H7, H10⟩
  ihave H9 := (pointsTo_share (PosShare.mem_left_op_right fullShare)).2 $$ [H9l H9r]
  · isplitl [H9l] <;> iassumption
  isplitl [H1]; · iexact H1
  isplitl [H9]; · iexact H9
  isplitl [H8]; · iexact H8
  isplitl [H7]; · iexact H7
  iexact H10

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (LayerRegion.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (AggRegion.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_join m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.WholeRun

end
-- ==== Proof.HostStages.lean ====
/-
  The host operations around the two kernel regions, read at one entry.

  Before the first region the program flattens the node features [8, 256, 128] to rows [2048, 128] and the mask [8, 256] to a
  column [2048, 1] (row b · 256 + n is node n of batch b), transposes the two weight matrices, and views each bias
  [128] as a row [1, 128]. Between the regions it views the two layers' rows [2048, 128] as [8, 256, 128] again and the mask
  as [8, 256, 1]. Each result is a relabelling of one array's entries: a reshape keeps the row-major position, a transpose
  swaps the two coordinates. Every statement is over an arbitrary valuation of the buffers the stretch starts from.
-/
import proofs.«102665_j32633161515440_2_alg».proof.Proof.Gen.KernelIdeal.Launch
import proofs.«102665_j32633161515440_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostStages

open Idealize.ShloMosaic Idealize.ShloMosaic.TcCoe Idealize.ShloMosaic.ValueIdx
open Cert.KernelIdeal Cert.KernelIdeal.Gen

variable {F : FTy → Type} [FloatOps F] (W : Valuation τ sig (Elt F))

/-! ## The stretch before the first region: each result as one operation of an argument -/

/-- The flattened node features are the reshape of the node features. -/
theorem rows_eq : (StableHlo.after hostOps0 W main_v0 : S2048x128.Idx → Elt F .f32)
    = shapeCast S2048x128 (W main_arg0 : S8x256x128.Idx → Elt F .f32) shapeCasts_S8x256x128_S2048x128 := by
  after_results; rfl

/-- The mask column is the reshape of the mask. -/
theorem maskcol_eq : (StableHlo.after hostOps0 W main_v1 : S2048x1.Idx → Elt F .f32)
    = shapeCast S2048x1 (W main_arg2 : S8x256.Idx → Elt F .f32) shapeCasts_S8x256_S2048x1 := by
  after_results; rfl

/-- The first layer's weights as the region reads them are the transposed weights. -/
theorem wu_eq : (StableHlo.after hostOps0 W main_v2 : S128x128.Idx → Elt F .f32)
    = transpose S128x128 [1, 0] (W main_arg3 : S128x128.Idx → Elt F .f32) transposes_S128x128_S128x128_1_0 := by
  after_results

/-- The second layer's likewise. -/
theorem wv_eq : (StableHlo.after hostOps0 W main_v3 : S128x128.Idx → Elt F .f32)
    = transpose S128x128 [1, 0] (W main_arg5 : S128x128.Idx → Elt F .f32) transposes_S128x128_S128x128_1_0 := by
  after_results

/-- The first layer's bias row is the reshape of the bias. -/
theorem bu_eq : (StableHlo.after hostOps0 W main_v4 : S1x128.Idx → Elt F .f32)
    = shapeCast S1x128 (W main_arg4 : S128.Idx → Elt F .f32) shapeCasts_S128_S1x128 := by
  after_results; rfl

/-- The second layer's likewise. -/
theorem bv_eq : (StableHlo.after hostOps0 W main_v5 : S1x128.Idx → Elt F .f32)
    = shapeCast S1x128 (W main_arg6 : S128.Idx → Elt F .f32) shapeCasts_S128_S1x128 := by
  after_results; rfl

/-! ## … read at an entry -/

/-- Row b · 256 + n of the flattened features is node n of batch b. -/
theorem rows_apply (b : Fin 8) (n : Fin 256) (k : Fin 128) :
    StableHlo.after hostOps0 W main_v0 (ix2 (⟨b.val * 256 + n.val, by omega⟩ : Fin 2048) k) = W main_arg0 (ix3 b n k) := by
  refine (congrFun (rows_eq W) _).trans ?_
  refine shapeCast_apply (s := S8x256x128) (t := S2048x128) _ _ _ (ix3 b n k) ?_
  rw [Shape.rowMajor_val_three, Shape.rowMajor_val_two]
  rfl

/-- Row b · 256 + n of the mask column is the mask of node n of batch b. -/
theorem maskcol_apply (b : Fin 8) (n : Fin 256) :
    StableHlo.after hostOps0 W main_v1 (ix2 (⟨b.val * 256 + n.val, by omega⟩ : Fin 2048) (0 : Fin 1)) = W main_arg2 (ix2 b n) := by
  refine (congrFun (maskcol_eq W) _).trans ?_
  refine shapeCast_apply (s := S8x256) (t := S2048x1) _ _ _ (ix2 b n) ?_
  rw [Shape.rowMajor_val_two, Shape.rowMajor_val_two]
  show b.val * 256 + n.val = (b.val * 256 + n.val) * 1 + 0
  omega

/-- The transposed first-layer weights at (k, o) are the weights at (o, k). -/
theorem wu_apply (k o : Fin 128) : StableHlo.after hostOps0 W main_v2 (ix2 k o) = W main_arg3 (ix2 o k) :=
  (congrFun (wu_eq W) _).trans (transpose_ix2_apply _ _ k o)

/-- The transposed second-layer weights at (k, o) are the weights at (o, k). -/
theorem wv_apply (k o : Fin 128) : StableHlo.after hostOps0 W main_v3 (ix2 k o) = W main_arg5 (ix2 o k) :=
  (congrFun (wv_eq W) _).trans (transpose_ix2_apply _ _ k o)

/-- The first layer's bias row at o is the bias at o. -/
theorem bu_apply (o : Fin 128) : StableHlo.after hostOps0 W main_v4 (ix2 (0 : Fin 1) o) = W main_arg4 (ix1 o) :=
  (congrFun (bu_eq W) _).trans (shapeCast_a_1a_apply _ _ 0 o)

/-- The second layer's bias row at o is the bias at o. -/
theorem bv_apply (o : Fin 128) : StableHlo.after hostOps0 W main_v5 (ix2 (0 : Fin 1) o) = W main_arg6 (ix1 o) :=
  (congrFun (bv_eq W) _).trans (shapeCast_a_1a_apply _ _ 0 o)

/-! ## The stretch between the regions -/

/-- The first layer as the second region reads it is the reshape of the first region's first result. -/
theorem first_eq : (StableHlo.after hostOps1 W main_v7 : S8x256x128.Idx → Elt F .f32)
    = shapeCast S8x256x128 (W main_v6_0 : S2048x128.Idx → Elt F .f32) shapeCasts_S2048x128_S8x256x128 := by
  after_results; rfl

/-- The second layer likewise, of the second result. -/
theorem second_eq : (StableHlo.after hostOps1 W main_v8 : S8x256x128.Idx → Elt F .f32)
    = shapeCast S8x256x128 (W main_v6_1 : S2048x128.Idx → Elt F .f32) shapeCasts_S2048x128_S8x256x128 := by
  after_results; rfl

/-- The mask with a trailing unit axis is the reshape of the mask. -/
theorem mask3_eq : (StableHlo.after hostOps1 W main_v9 : S8x256x1.Idx → Elt F .f32)
    = shapeCast S8x256x1 (W main_arg2 : S8x256.Idx → Elt F .f32) shapeCasts_S8x256_S8x256x1 := by
  after_results; rfl

/-- Node n of batch b of the first layer is row b · 256 + n of the first region's first result. -/
theorem first_apply (b : Fin 8) (n : Fin 256) (h : Fin 128) :
    StableHlo.after hostOps1 W main_v7 (ix3 b n h) = W main_v6_0 (ix2 (⟨b.val * 256 + n.val, by omega⟩ : Fin 2048) h) := by
  refine (congrFun (first_eq W) _).trans ?_
  refine shapeCast_apply (s := S2048x128) (t := S8x256x128) _ _ _ (ix2 (⟨b.val * 256 + n.val, by omega⟩ : Fin 2048) h) ?_
  rw [Shape.rowMajor_val_two, Shape.rowMajor_val_three]
  rfl

/-- Node n of batch b of the second layer is row b · 256 + n of the first region's second result. -/
theorem second_apply (b : Fin 8) (n : Fin 256) (h : Fin 128) :
    StableHlo.after hostOps1 W main_v8 (ix3 b n h) = W main_v6_1 (ix2 (⟨b.val * 256 + n.val, by omega⟩ : Fin 2048) h) := by
  refine (congrFun (second_eq W) _).trans ?_
  refine shapeCast_apply (s := S2048x128) (t := S8x256x128) _ _ _ (ix2 (⟨b.val * 256 + n.val, by omega⟩ : Fin 2048) h) ?_
  rw [Shape.rowMajor_val_two, Shape.rowMajor_val_three]
  rfl

/-- The mask with a trailing unit axis at (b, n, 0) is the mask at (b, n). -/
theorem mask3_apply (b : Fin 8) (n : Fin 256) :
    StableHlo.after hostOps1 W main_v9 (ix3 b n (0 : Fin 1)) = W main_arg2 (ix2 b n) := by
  refine (congrFun (mask3_eq W) _).trans ?_
  refine shapeCast_apply (s := S8x256) (t := S8x256x1) _ _ _ (ix2 b n) ?_
  rw [Shape.rowMajor_val_two, Shape.rowMajor_val_three]
  show b.val * 256 + n.val = (b.val * 256 + n.val) * 1 + 0
  omega

/-! ## What the stretches leave alone -/

/-- The stretch between the regions does not write the edge gates … -/
theorem gates_kept : StableHlo.after hostOps1 W main_arg1 = W main_arg1 :=
  StableHlo.after_of_writes_sub hostOps1 W hostOps1_writes (by decide)

/-- … nor the mask. -/
theorem mask_kept : StableHlo.after hostOps1 W main_arg2 = W main_arg2 :=
  StableHlo.after_of_writes_sub hostOps1 W hostOps1_writes (by decide)

end Cert.KernelIdeal.HostStages

end
-- ==== Proof.Payloads.lean ====
/-
  The two kernel bodies' arithmetic read at one entry of the block each body stores.

  The first body stores two blocks of 512 rows and 128 features, one per linear layer: the product of the row block with
  the weight matrix accumulated from zero, plus the bias row repeated down the rows, times the mask column repeated across
  the features. At row r and feature o that is ((Σ_k x(r,k) · w(k,o)) + β(o)) · m(r).

  The second body stores a block of 64 destination nodes and 128 features: with the gate block g(i,j,h), the source mask
  column m(j), the second layer's block V(j,h), the destination mask column μ(i) and the first layer's block U(i,h), it
  forms s(i,j,h) = g(i,j,h) · m(j), sums s over the 256 source nodes j, sums s · V(j,h) over them, and stores
  U(i,h) + (μ(i) · Σ_j s · V) ÷ (ε + μ(i) · Σ_j s).

  Every lemma keeps the entry's coordinates symbolic: nothing is evaluated over an index set.
-/
import proofs.«102665_j32633161515440_2_alg».proof.Proof.Gen.KernelIdeal.Skeleton
import proofs.«102665_j32633161515440_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.GatedAgg.Payloads

open Idealize.ShloMosaic Idealize.ShloMosaic.ValueIdx
open Cert.KernelIdeal Cert.KernelIdeal.Gen

/-! ## Layout operations the library does not yet read at coordinates -/

section Layout
variable {α : Type}

/-- A column [a, 1] repeated across b columns reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column [1, b, 1] repeated over a leading axis and across c lanes reads, at (p, q, r), the column's entry of row q. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A matrix [1, b, c] repeated over a leading axis reads, at (p, q, r), the matrix at (q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Layout

/-! ## The first body: a masked linear layer's block -/

/-- The product's left operand is read at the output's row … -/
theorem lhs_row (j : S512x128.Idx) (q : dot_S512x128_S128x128_S512x128_1_0_0_1_n_n.contr.Idx) :
    (dot_S512x128_S128x128_S512x128_1_0_0_1_n_n.lhsIdx j q 0).val = (j 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
/-- … and at the summation index on its second axis; -/
theorem lhs_col (j : S512x128.Idx) (q : dot_S512x128_S128x128_S512x128_1_0_0_1_n_n.contr.Idx) :
    (dot_S512x128_S128x128_S512x128_1_0_0_1_n_n.lhsIdx j q 1).val = (q ⟨0, by decide⟩).val :=
  dot_S512x128_S128x128_S512x128_1_0_0_1_n_n.lhsIdx_val_of_single rfl j q
/-- the right operand at the summation index on its first axis … -/
theorem rhs_row (j : S512x128.Idx) (q : dot_S512x128_S128x128_S512x128_1_0_0_1_n_n.contr.Idx) :
    (dot_S512x128_S128x128_S512x128_1_0_0_1_n_n.rhsIdx j q 0).val = (q ⟨0, by decide⟩).val :=
  dot_S512x128_S128x128_S512x128_1_0_0_1_n_n.rhsIdx_val_of_single rfl j q
/-- … and at the output's column. -/
theorem rhs_col (j : S512x128.Idx) (q : dot_S512x128_S128x128_S512x128_1_0_0_1_n_n.contr.Idx) :
    (dot_S512x128_S128x128_S512x128_1_0_0_1_n_n.rhsIdx j q 1).val = (j 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The row-block-times-matrix product accumulated from zero, at row r and column o: the sum over the 128 input
    features of the products. -/
theorem matmul_block (x : FVec Ideal S512x128 .f32) (w : FVec Ideal S128x128 .f32) (r : Fin 512) (o : Fin 128) :
    matmul (F := Ideal) dot_S512x128_S128x128_S512x128_1_0_0_1_n_n none x w (constant (F := Ideal) S512x128 .f32 0x00000000#32) (ix2 r o)
      = ∑ k : Fin 128, x (ix2 r k) * w (ix2 k o) := by
  refine (Ideal.matmul_constant_zero_apply dot_S512x128_S128x128_S512x128_1_0_0_1_n_n none x w (ix2 r o)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r o)
      ((contrEquiv1 dot_S512x128_S128x128_S512x128_1_0_0_1_n_n 128 rfl rfl).symm k) = ix2 r k :=
    funext fun a => Fin.ext (by
      match a with
      | ⟨0, _⟩ => exact lhs_row _ _
      | ⟨1, _⟩ => exact (lhs_col _ _).trans hk)
  have er : dot_S512x128_S128x128_S512x128_1_0_0_1_n_n.rhsIdx (ix2 r o)
      ((contrEquiv1 dot_S512x128_S128x128_S512x128_1_0_0_1_n_n 128 rfl rfl).symm k) = ix2 k o :=
    funext fun a => Fin.ext (by
      match a with
      | ⟨0, _⟩ => exact (rhs_row _ _).trans hk
      | ⟨1, _⟩ => exact rhs_col _ _)
  rw [el, er]

/-- THE FIRST LAYER'S BLOCK at row r and feature o: the product summed over the input features, plus the bias, times
    the row's mask. -/
theorem layer_block (v0 : Vec Ideal S512x128 .f32) (v2 : Vec Ideal S512x1 .f32) (v4 : Vec Ideal S128x128 .f32)
    (v7 : Vec Ideal S1x128 .f32) (r : Fin 512) (o : Fin 128) :
    k0_pay3 (F := Ideal) v0 v2 v4 v7 (ix2 r o)
      = ((∑ k : Fin 128, v0 (ix2 r k) * v4 (ix2 k o)) + v7 (ix2 0 o)) * v2 (ix2 r 0) := by
  unfold k0_pay3 k0_pay1 k0_pay2
  simp only [shapeCast_self]
  refine (mulf_apply _ _ _).trans ?_
  refine congrArg₂ (· * ·) ?_ (broadcastTo_a1_ab_apply v2 _ r o)
  refine (addf_apply _ _ _).trans ?_
  exact congrArg₂ (· + ·) (matmul_block v0 v4 r o) (broadcastTo_1b_ab_apply v7 _ r o)

/-- THE SECOND LAYER'S BLOCK at row r and feature o: the same arithmetic on the second layer's weights and bias. -/
theorem layer_block' (v0 : Vec Ideal S512x128 .f32) (v2 : Vec Ideal S512x1 .f32) (v11 : Vec Ideal S128x128 .f32)
    (v14 : Vec Ideal S1x128 .f32) (r : Fin 512) (o : Fin 128) :
    k0_pay4 (F := Ideal) v0 v2 v11 v14 (ix2 r o)
      = ((∑ k : Fin 128, v0 (ix2 r k) * v11 (ix2 k o)) + v14 (ix2 0 o)) * v2 (ix2 r 0) := by
  unfold k0_pay4 k0_pay1 k0_pay2
  simp only [shapeCast_self]
  refine (mulf_apply _ _ _).trans ?_
  refine congrArg₂ (· * ·) ?_ (broadcastTo_a1_ab_apply v2 _ r o)
  refine (addf_apply _ _ _).trans ?_
  exact congrArg₂ (· + ·) (matmul_block v0 v11 r o) (broadcastTo_1b_ab_apply v14 _ r o)

/-! ## The second body: the aggregation's block -/

/-- The lane sum over the source axis of a [64, 256, 128] block, at destination i and feature h: the sum over the 256
    source nodes. -/
theorem sum_sources (src : FVec Ideal S64x256x128 .f32) (hφ : FKind.Formats .f32)
    (hacc : (0x00000000#32 : BitVec 32) = FKind.add.neutral .f32 hφ) (i : Fin 64) (h : Fin 128) :
    multiReduction (F := Ideal) .add [1] S64x128 src 0x00000000#32 reduces_S64x256x128_S64x128 hφ hacc (ix2 i h)
      = ∑ j : Fin 256, src (ix3 i j h) := by
  refine (Ideal.multiReduction_add_single src 0x00000000#32 reduces_S64x256x128_S64x128 hφ hacc (ix2 i h)).trans ?_
  refine Finset.sum_congr rfl fun j _ => congrArg src (funext fun a => Fin.ext ?_)
  match a with
  | ⟨0, _⟩ => rfl
  | ⟨1, _⟩ => rfl
  | ⟨2, _⟩ => rfl

/-- The gate block times the source mask column, at destination i, source j and feature h. -/
theorem masked_gate (v0 : Vec Ideal S1x64x256x128 .f32) (v2 : Vec Ideal S1x256x1 .f32) (i : Fin 64) (j : Fin 256) (h : Fin 128) :
    mulf (F := Ideal) (φ := .f32) (shapeCast S64x256x128 v0 shapeCasts_S1x64x256x128_S64x256x128)
        (broadcastTo S64x256x128 v2 broadcasts_S1x256x1_S64x256x128) (ix3 i j h)
      = v0 (ix4 0 i j h) * v2 (ix3 0 j 0) :=
  (mulf_apply _ _ _).trans (congrArg₂ (· * ·) (shapeCast_1abc_abc_apply v0 _ i j h) (broadcastTo_1b1_abc_apply v2 _ i j h))

/-- The destination mask column repeated across the features, at destination i and feature h. -/
theorem dest_mask (v14 : Vec Ideal S1x64x1 .f32) (i : Fin 64) (h : Fin 128) :
    broadcastTo S64x128 (shapeCast S64x1 v14 shapeCasts_S1x64x1_S64x1) broadcasts_S64x1_S64x128 (ix2 i h)
      = v14 (ix3 0 i 0) :=
  (broadcastTo_a1_ab_apply _ _ i h).trans (shapeCast_1ab_ab_apply v14 _ i 0)

/-- THE AGGREGATION'S BLOCK at destination i and feature h: the first layer's entry plus the destination mask times the
    gated messages, divided by ε plus the destination mask times the gate mass; both sums run over the 256 source nodes
    and carry the source mask inside. -/
theorem agg_block (v0 : Vec Ideal S1x64x256x128 .f32) (v2 : Vec Ideal S1x256x1 .f32) (v5 : Vec Ideal S1x256x128 .f32)
    (v14 : Vec Ideal S1x64x1 .f32) (v23 : Vec Ideal S1x64x128 .f32) (i : Fin 64) (h : Fin 128) :
    k1_pay1 (F := Ideal) v0 v2 v5 v14 v23 (ix3 0 i h)
      = v23 (ix3 0 i h)
        + Ideal.div (v14 (ix3 0 i 0) * ∑ j : Fin 256, (v0 (ix4 0 i j h) * v2 (ix3 0 j 0)) * v5 (ix3 0 j h))
            (Cert.GatedAgg.eps + v14 (ix3 0 i 0) * ∑ j : Fin 256, v0 (ix4 0 i j h) * v2 (ix3 0 j 0)) := by
  unfold k1_pay1
  simp only [shapeCast_shapeCast]
  refine (shapeCast_ab_1ab_apply _ shapeCasts_S64x128_S1x64x128 0 i h).trans ?_
  refine (addf_apply _ _ _).trans ?_
  refine congrArg₂ (· + ·) (shapeCast_1ab_ab_apply v23 _ i h) ?_
  refine (divf_apply _ _ _).trans ?_
  refine congrArg₂ Ideal.div ?_ ?_
  · refine (mulf_apply _ _ _).trans ?_
    refine congrArg₂ (· * ·) (dest_mask v14 i h) ?_
    refine (sum_sources _ _ _ i h).trans ?_
    refine Finset.sum_congr rfl fun j _ => ?_
    exact (mulf_apply _ _ _).trans (congrArg₂ (· * ·) (masked_gate v0 v2 i j h) (broadcastTo_1bc_abc_apply v5 _ i j h))
  · refine (addf_apply _ _ _).trans ?_
    refine congrArg₂ (· + ·) rfl ?_
    refine (mulf_apply _ _ _).trans ?_
    refine congrArg₂ (· * ·) (dest_mask v14 i h) ?_
    refine (sum_sources _ _ _ i h).trans ?_
    exact Finset.sum_congr rfl fun j _ => masked_gate v0 v2 i j h

end Cert.GatedAgg.Payloads

end
-- ==== Proof.LayerValue.lean ====
/-
  The first region's two results as whole arrays: the two masked linear layers over the flattened (batch × node) axis.

  The region runs over four grid points; point t is handed rows 512·t … 512·t + 511 of the 2048 × 128 feature array and
  of the 2048 × 1 mask column, and the whole of each weight matrix and bias row, and writes back rows 512·t … 512·t + 511
  of each of its two results.  Row r of a block at point t is row 512·t + r of its array, and a column is the same column,
  so the entry the body stores at (r, o), ((Σ_k x(r,k) · w(k,o)) + β(o)) · m(r) over the blocks, is the same expression
  over the arrays at row 512·t + r.  Every row lies in the block of the point (row / 512), so the four written-back blocks
  tile each result, which therefore ends holding, at row n and feature o,
      ((Σ_k x(n,k) · w(k,o)) + β(0,o)) · m(n,0).
-/
import proofs.«102665_j32633161515440_2_alg».proof.Proof.LayerRegion
import proofs.«102665_j32633161515440_2_alg».proof.Proof.Payloads
import Idealize.ShloMosaic.Lib.ValueIdx
import Idealize.ShloMosaic.Lib.Pipeline.Value

noncomputable section

open scoped BigOperators

namespace Cert.KernelIdeal.LayerValue

open Cert.KernelIdeal Cert.KernelIdeal.Gen Cert.GatedAgg
open Idealize.ShloMosaic Idealize.ShloMosaic.TcCoe Idealize.ShloMosaic.ValueIdx
open Idealize.SL Idealize.SL.Sem
open Idealize.ShloMosaic.Pipeline (Dat)

-- the core's buffer contents when the region is entered
variable (V : (c : Dev nD) → (b : Ref sig .tc) → Buf (Elt Ideal) ((c : Thread nD τ).loc b))

/-- The zero offsets of a whole-buffer rectangle. -/
theorem hz : (![0, 0] : Fin 2 → Nat) = fun _ => 0 := funext fun a => by fin_cases a <;> rfl

/-- The block index maps, decided over the four grid points: the rows, the mask column and the two results move with the
    point along the row axis; the weights and the biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A masked linear layer over the flattened arrays: at row n and output feature o,
    ((Σ_k x(n,k) · w(k,o)) + β(0,o)) · m(n,0). -/
def layerFlat (x : S2048x128.Idx → Elt Ideal .f32) (m : S2048x1.Idx → Elt Ideal .f32) (w : S128x128.Idx → Elt Ideal .f32)
    (β : S1x128.Idx → Elt Ideal .f32) : S2048x128.Idx → Elt Ideal .f32 :=
  fun idx => ((∑ k : Fin 128, x (ix2 (idx 0) k) * w (ix2 k (idx 1))) + β (ix2 0 (idx 1))) * m (ix2 (idx 0) 0)

/-! ## The body's two stores at an entry of the block -/

/-- The first layer's block at an entry, by its coordinates. -/
theorem entry_first (B0 : Vec Ideal S512x128 .f32) (B1 : Vec Ideal S512x1 .f32) (B2 : Vec Ideal S128x128 .f32)
    (B3 : Vec Ideal S1x128 .f32) (j : S512x128.Idx) :
    k0_pay3 (F := Ideal) B0 B1 B2 B3 j
      = ((∑ k : Fin 128, B0 (ix2 (j 0) k) * B2 (ix2 k (j 1))) + B3 (ix2 0 (j 1))) * B1 (ix2 (j 0) 0) := by
  obtain ⟨r, o, rfl⟩ : ∃ (r : Fin 512) (o : Fin 128), j = ix2 r o := ⟨j 0, j 1, eq_ix2 j⟩
  exact Payloads.layer_block B0 B1 B2 B3 r o

/-- The second layer's block at an entry, by its coordinates. -/
theorem entry_second (B0 : Vec Ideal S512x128 .f32) (B1 : Vec Ideal S512x1 .f32) (B4 : Vec Ideal S128x128 .f32)
    (B5 : Vec Ideal S1x128 .f32) (j : S512x128.Idx) :
    k0_pay4 (F := Ideal) B0 B1 B4 B5 j
      = ((∑ k : Fin 128, B0 (ix2 (j 0) k) * B4 (ix2 k (j 1))) + B5 (ix2 0 (j 1))) * B1 (ix2 (j 0) 0) := by
  obtain ⟨r, o, rfl⟩ : ∃ (r : Fin 512) (o : Fin 128), j = ix2 r o := ⟨j 0, j 1, eq_ix2 j⟩
  exact Payloads.layer_block' B0 B1 B4 B5 r o

/-! ## Each input block as entries of its array -/

/-- Row r of the feature block at point t is row 512·t + r of the feature array. -/
theorem rows_apply (c : Dev nD) (t : Fin cfg0.N) (y : S512x128.Idx) (i : S2048x128.Idx)
    (h0 : (i 0).val = t.val * 512 + (y 0).val) (h1 : (i 1).val = (y 1).val) :
    (LayerRegion.blk V c 0 t : Vec Ideal S512x128 .f32) y = (V c main_v0 : S2048x128.Idx → Elt Ideal .f32) i := by
  obtain ⟨e0, e1, -⟩ := idx_facts t
  unfold LayerRegion.blk
  rw [View.read_apply]
  show V c main_v0 _ = V c main_v0 _
  congr 1
  funext a
  apply Fin.ext
  match a with
  | ⟨0, _⟩ => show win0_0.index t 0 * 512 + 1 * (y 0).val = (i 0).val; rw [e0, h0]; omega
  | ⟨1, _⟩ => show win0_0.index t 1 * 128 + 1 * (y 1).val = (i 1).val; rw [e1, h1]; omega

/-- Row r of the mask block at point t is row 512·t + r of the mask column. -/
theorem mask_apply (c : Dev nD) (t : Fin cfg0.N) (y : S512x1.Idx) (i : S2048x1.Idx)
    (h0 : (i 0).val = t.val * 512 + (y 0).val) (h1 : (i 1).val = (y 1).val) :
    (LayerRegion.blk V c 1 t : Vec Ideal S512x1 .f32) y = (V c main_v1 : S2048x1.Idx → Elt Ideal .f32) i := by
  obtain ⟨-, -, e0, e1, -⟩ := idx_facts t
  unfold LayerRegion.blk
  rw [View.read_apply]
  show V c main_v1 _ = V c main_v1 _
  congr 1
  funext a
  apply Fin.ext
  match a with
  | ⟨0, _⟩ => show win0_1.index t 0 * 512 + 1 * (y 0).val = (i 0).val; rw [e0, h0]; omega
  | ⟨1, _⟩ => show win0_1.index t 1 * 1 + 1 * (y 1).val = (i 1).val; rw [e1, h1]; omega

/-- The first weight block is the first weight matrix at every point. -/
theorem weights_first_apply (c : Dev nD) (t : Fin cfg0.N) (y i : S128x128.Idx)
    (h0 : (i 0).val = (y 0).val) (h1 : (i 1).val = (y 1).val) :
    (LayerRegion.blk V c 2 t : Vec Ideal S128x128 .f32) y = (V c main_v2 : S128x128.Idx → Elt Ideal .f32) i := by
  obtain ⟨-, -, -, -, e0, e1, -⟩ := idx_facts t
  unfold LayerRegion.blk
  rw [View.read_apply]
  show V c main_v2 _ = V c main_v2 _
  congr 1
  funext a
  apply Fin.ext
  match a with
  | ⟨0, _⟩ => show win0_2.index t 0 * 128 + 1 * (y 0).val = (i 0).val; rw [e0, h0]; omega
  | ⟨1, _⟩ => show win0_2.index t 1 * 128 + 1 * (y 1).val = (i 1).val; rw [e1, h1]; omega

/-- The first bias block is the first bias row at every point. -/
theorem bias_first_apply (c : Dev nD) (t : Fin cfg0.N) (y i : S1x128.Idx)
    (h0 : (i 0).val = (y 0).val) (h1 : (i 1).val = (y 1).val) :
    (LayerRegion.blk V c 3 t : Vec Ideal S1x128 .f32) y = (V c main_v4 : S1x128.Idx → Elt Ideal .f32) i := by
  obtain ⟨-, -, -, -, -, -, e0, e1, -⟩ := idx_facts t
  unfold LayerRegion.blk
  rw [View.read_apply]
  show V c main_v4 _ = V c main_v4 _
  congr 1
  funext a
  apply Fin.ext
  match a with
  | ⟨0, _⟩ => show win0_3.index t 0 * 1 + 1 * (y 0).val = (i 0).val; rw [e0, h0]; omega
  | ⟨1, _⟩ => show win0_3.index t 1 * 128 + 1 * (y 1).val = (i 1).val; rw [e1, h1]; omega

/-- The second weight block is the second weight matrix at every point. -/
theorem weights_second_apply (c : Dev nD) (t : Fin cfg0.N) (y i : S128x128.Idx)
    (h0 : (i 0).val = (y 0).val) (h1 : (i 1).val = (y 1).val) :
    (LayerRegion.blk V c 4 t : Vec Ideal S128x128 .f32) y = (V c main_v3 : S128x128.Idx → Elt Ideal .f32) i := by
  obtain ⟨-, -, -, -, -, -, -, -, e0, e1, -⟩ := idx_facts t
  unfold LayerRegion.blk
  rw [View.read_apply]
  show V c main_v3 _ = V c main_v3 _
  congr 1
  funext a
  apply Fin.ext
  match a with
  | ⟨0, _⟩ => show win0_4.index t 0 * 128 + 1 * (y 0).val = (i 0).val; rw [e0, h0]; omega
  | ⟨1, _⟩ => show win0_4.index t 1 * 128 + 1 * (y 1).val = (i 1).val; rw [e1, h1]; omega

/-- The second bias block is the second bias row at every point. -/
theorem bias_second_apply (c : Dev nD) (t : Fin cfg0.N) (y i : S1x128.Idx)
    (h0 : (i 0).val = (y 0).val) (h1 : (i 1).val = (y 1).val) :
    (LayerRegion.blk V c 5 t : Vec Ideal S1x128 .f32) y = (V c main_v5 : S1x128.Idx → Elt Ideal .f32) i := by
  obtain ⟨-, -, -, -, -, -, -, -, -, -, e0, e1, -⟩ := idx_facts t
  unfold LayerRegion.blk
  rw [View.read_apply]
  show V c main_v5 _ = V c main_v5 _
  congr 1
  funext a
  apply Fin.ext
  match a with
  | ⟨0, _⟩ => show win0_5.index t 0 * 1 + 1 * (y 0).val = (i 0).val; rw [e0, h0]; omega
  | ⟨1, _⟩ => show win0_5.index t 1 * 128 + 1 * (y 1).val = (i 1).val; rw [e1, h1]; omega

/-! ## What each point writes back -/

/-- What point t writes back of the first result is block t of the first layer over the arrays. -/
theorem first_flushed (c : Dev nD) (t : Fin cfg0.N) :
    (LayerRegion.dat (F := Ideal) V c).flushed 6 t
      = ((cfg0.win 6).blk t).view.read (Elt Ideal) (layerFlat (V c main_v0) (V c main_v1) (V c main_v2) (V c main_v4)) := by
  show (cfg0.win 6).cut (grid0.coords t) ((LayerRegion.dat V c).after 6 t) = _
  rw [LayerRegion.after_6]
  unfold LayerRegion.firstLayer
  rw [View.canon_unit_zero hz]
  simp only [View.ld_unit_zero (S := S512x128) hz, View.ld_unit_zero (S := S512x1) hz,
    View.ld_unit_zero (S := S128x128) hz, View.ld_unit_zero (S := S1x128) hz]
  funext j
  show k0_pay3 (F := Ideal) (LayerRegion.blk V c 0 t) (LayerRegion.blk V c 1 t) (LayerRegion.blk V c 2 t) (LayerRegion.blk V c 3 t) j
    = layerFlat (V c main_v0) (V c main_v1) (V c main_v2) (V c main_v4) (((cfg0.win 6).blk t).view.emb j)
  refine (entry_first _ _ _ _ j).trans ?_
  obtain ⟨-, -, -, -, -, -, -, -, -, -, -, -, e0, e1, -⟩ := idx_facts t
  have r0 : ((((cfg0.win 6).blk t).view.emb j) 0).val = t.val * 512 + (j 0).val := by
    show win0_6.index t 0 * 512 + 1 * (j 0).val = _; rw [e0]; omega
  have r1 : ((((cfg0.win 6).blk t).view.emb j) 1).val = (j 1).val := by
    show win0_6.index t 1 * 128 + 1 * (j 1).val = _; rw [e1]; omega
  unfold layerFlat
  exact congrArg₂ (· * ·)
    (congrArg₂ (· + ·)
      (Finset.sum_congr rfl fun k _ => congrArg₂ (· * ·) (rows_apply V c t _ _ r0 rfl) (weights_first_apply V c t _ _ rfl r1))
      (bias_first_apply V c t _ _ rfl r1))
    (mask_apply V c t _ _ r0 rfl)

/-- What point t writes back of the second result is block t of the second layer over the arrays. -/
theorem second_flushed (c : Dev nD) (t : Fin cfg0.N) :
    (LayerRegion.dat (F := Ideal) V c).flushed 7 t
      = ((cfg0.win 7).blk t).view.read (Elt Ideal) (layerFlat (V c main_v0) (V c main_v1) (V c main_v3) (V c main_v5)) := by
  show (cfg0.win 7).cut (grid0.coords t) ((LayerRegion.dat V c).after 7 t) = _
  rw [LayerRegion.after_7]
  unfold LayerRegion.secondLayer
  rw [View.canon_unit_zero hz]
  simp only [View.ld_unit_zero (S := S512x128) hz, View.ld_unit_zero (S := S512x1) hz,
    View.ld_unit_zero (S := S128x128) hz, View.ld_unit_zero (S := S1x128) hz]
  funext j
  show k0_pay4 (F := Ideal) (LayerRegion.blk V c 0 t) (LayerRegion.blk V c 1 t) (LayerRegion.blk V c 4 t) (LayerRegion.blk V c 5 t) j
    = layerFlat (V c main_v0) (V c main_v1) (V c main_v3) (V c main_v5) (((cfg0.win 7).blk t).view.emb j)
  refine (entry_second _ _ _ _ j).trans ?_
  obtain ⟨-, -, -, -, -, -, -, -, -, -, -, -, -, -, e0, e1⟩ := idx_facts t
  have r0 : ((((cfg0.win 7).blk t).view.emb j) 0).val = t.val * 512 + (j 0).val := by
    show win0_7.index t 0 * 512 + 1 * (j 0).val = _; rw [e0]; omega
  have r1 : ((((cfg0.win 7).blk t).view.emb j) 1).val = (j 1).val := by
    show win0_7.index t 1 * 128 + 1 * (j 1).val = _; rw [e1]; omega
  unfold layerFlat
  exact congrArg₂ (· * ·)
    (congrArg₂ (· + ·)
      (Finset.sum_congr rfl fun k _ => congrArg₂ (· * ·) (rows_apply V c t _ _ r0 rfl) (weights_second_apply V c t _ _ rfl r1))
      (bias_second_apply V c t _ _ rfl r1))
    (mask_apply V c t _ _ r0 rfl)

/-! ## The written-back blocks tile each result -/

/-- An index of the first result is in point t's block iff each coordinate is in the block's range on its axis. -/
theorem first_mem_blk (t : Fin cfg0.N) (i : S2048x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v6_0).slice (win0_6.rect t)).set ↔ _
  rw [View.set_slice_whole, Rect.mem_set_unit]
  exact Iff.rfl

/-- An index of the second result is in point t's block iff each coordinate is in the block's range on its axis. -/
theorem second_mem_blk (t : Fin cfg0.N) (i : S2048x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v6_1).slice (win0_7.rect t)).set ↔ _
  rw [View.set_slice_whole, Rect.mem_set_unit]
  exact Iff.rfl

/-- Row n of the first result lies in the block of point n / 512, which writes it back. -/
theorem first_cover (i : S2048x128.Idx) :
    ∃ t : Fin cfg0.N, (cfg0.win 6).flush t = true ∧ i ∈ ((cfg0.win 6).blk t).view.set := by
  have hi0 : (i 0).val < 2048 := (i 0).isLt
  have hi1 : (i 1).val < 128 := (i 1).isLt
  have hN : cfg0.N = 4 := N_0
  refine ⟨⟨(i 0).val / 512, by omega⟩, flush0_6 _, ?_⟩
  rw [first_mem_blk]
  obtain ⟨-, -, -, -, -, -, -, -, -, -, -, -, e0, e1, -⟩ := idx_facts ⟨(i 0).val / 512, by omega⟩
  intro a
  match a with
  | ⟨0, _⟩ =>
    show win0_6.index ⟨(i 0).val / 512, _⟩ (0 : Fin 2) * 512 ≤ (i 0).val ∧ (i 0).val < win0_6.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, _⟩ (1 : Fin 2) * 128 ≤ (i 1).val ∧ (i 1).val < win0_6.index ⟨(i 0).val / 512, _⟩ (1 : Fin 2) * 128 + 128
    rw [e1]; omega

/-- Row n of the second result lies in the block of point n / 512, which writes it back. -/
theorem second_cover (i : S2048x128.Idx) :
    ∃ t : Fin cfg0.N, (cfg0.win 7).flush t = true ∧ i ∈ ((cfg0.win 7).blk t).view.set := by
  have hi0 : (i 0).val < 2048 := (i 0).isLt
  have hi1 : (i 1).val < 128 := (i 1).isLt
  have hN : cfg0.N = 4 := N_0
  refine ⟨⟨(i 0).val / 512, by omega⟩, flush0_7 _, ?_⟩
  rw [second_mem_blk]
  obtain ⟨-, -, -, -, -, -, -, -, -, -, -, -, -, -, e0, e1⟩ := idx_facts ⟨(i 0).val / 512, by omega⟩
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, _⟩ (1 : Fin 2) * 128 ≤ (i 1).val ∧ (i 1).val < win0_7.index ⟨(i 0).val / 512, _⟩ (1 : Fin 2) * 128 + 128
    rw [e1]; omega

/-! ## The two results after the region -/

/-- A masked linear layer over the flattened arrays, at an entry. -/
theorem layerFlat_apply (x : S2048x128.Idx → Elt Ideal .f32) (m : S2048x1.Idx → Elt Ideal .f32) (w : S128x128.Idx → Elt Ideal .f32)
    (β : S1x128.Idx → Elt Ideal .f32) (idx : S2048x128.Idx) :
    layerFlat x m w β idx
      = ((∑ k : Fin 128, x (ix2 (idx 0) k) * w (ix2 k (idx 1))) + β (ix2 0 (idx 1))) * m (ix2 (idx 0) 0) := rfl

/-- THE FIRST RESULT after the region: the first masked linear layer over the flattened arrays, entry by entry. -/
theorem first_final (c : Dev nD) :
    (LayerRegion.dat (F := Ideal) V c).arrAt 6 cfg0.N
      = layerFlat (V c main_v0) (V c main_v1) (V c main_v2) (V c main_v4) :=
  (LayerRegion.dat (F := Ideal) V c).arrAt_eq_of_cover 6 (layerFlat (V c main_v0) (V c main_v1) (V c main_v2) (V c main_v4))
    (fun t _ => first_flushed V c t) first_cover

/-- THE SECOND RESULT after the region: the second masked linear layer over the flattened arrays, entry by entry. -/
theorem second_final (c : Dev nD) :
    (LayerRegion.dat (F := Ideal) V c).arrAt 7 cfg0.N
      = layerFlat (V c main_v0) (V c main_v1) (V c main_v3) (V c main_v5) :=
  (LayerRegion.dat (F := Ideal) V c).arrAt_eq_of_cover 7 (layerFlat (V c main_v0) (V c main_v1) (V c main_v3) (V c main_v5))
    (fun t _ => second_flushed V c t) second_cover

end Cert.KernelIdeal.LayerValue

end
-- ==== Proof.AggValue.lean ====
/-
  The second region's result array as ONE function of the arrays the region finds.

  The region walks a grid of 8 × 4 points; point (b, s) is handed the gates of destination nodes 64·s … 64·s + 63 of
  batch b against all 256 source nodes, the batch's mask column and second layer over all source nodes, and the
  destination nodes' mask column and first layer, and writes back the block

      U(b,i,h) + ( m(b,i) · Σ_j (g(b,i,j,h) · m(b,j)) · W(b,j,h) ) ÷ ( ε + m(b,i) · Σ_j g(b,i,j,h) · m(b,j) )

  for i in its 64 destination nodes and every feature h, where U is the first layer's array, W the second layer's, m the
  mask column and g the gates.  Each write-back is therefore the block of one whole-array function, read where the
  output's block sits; the 32 blocks tile the 8 × 256 × 128 result, so after the last point the array is that function.
-/
import proofs.«102665_j32633161515440_2_alg».proof.Proof.AggRegion
import proofs.«102665_j32633161515440_2_alg».proof.Proof.Payloads
import proofs.«102665_j32633161515440_2_alg».proof.Proof.Spec
import Idealize.ShloMosaic.Lib.Pipeline.Value
import Idealize.ShloMosaic.Lib.ValueIdx

noncomputable section

open scoped BigOperators

namespace Cert.KernelIdeal.AggValue

open Cert.KernelIdeal Cert.KernelIdeal.Gen Idealize.ShloMosaic Idealize.ShloMosaic.TcCoe Idealize.ShloMosaic.ValueIdx
open Idealize.ShloMosaic.Pipeline (Dat)

-- the core's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The whole-array function -/

/-- The aggregation at batch `b`, destination node `i` and feature `h`, over whole arrays: `u` the first layer, `g` the
    gates, `m` the mask column, `w` the second layer. -/
def aggAt (u : S8x256x128.Idx → EReal) (g : S8x256x256x128.Idx → EReal) (m : S8x256x1.Idx → EReal)
    (w : S8x256x128.Idx → EReal) (b : Fin 8) (i : Fin 256) (h : Fin 128) : EReal :=
  u (ix3 b i h)
    + Ideal.div (m (ix3 b i 0) * ∑ j : Fin 256, (g (ix4 b i j h) * m (ix3 b j 0)) * w (ix3 b j h))
        (Cert.GatedAgg.eps + m (ix3 b i 0) * ∑ j : Fin 256, g (ix4 b i j h) * m (ix3 b j 0))

/-- The result array of the region on core `c`, index by index. -/
def G (c : Dev nD) : S8x256x128.Idx → EReal :=
  fun k => aggAt (V c main_v7) (V c main_arg1) (V c main_v9) (V c main_v8) (k 0) (k 1) (k 2)

/-! ## One entry of one block -/

/-- The body's stored block at a block index `y`, when each input block holds the part of its array that the output
    index `k` calls for: the aggregation at `k`. -/
theorem block_entry (g : Vec Ideal S1x64x256x128 .f32) (mj : Vec Ideal S1x256x1 .f32) (w : Vec Ideal S1x256x128 .f32)
    (mi : Vec Ideal S1x64x1 .f32) (u : Vec Ideal S1x64x128 .f32)
    (A7 : S8x256x128.Idx → EReal) (A1 : S8x256x256x128.Idx → EReal) (A9 : S8x256x1.Idx → EReal)
    (A8 : S8x256x128.Idx → EReal) (y : S1x64x128.Idx) (k : S8x256x128.Idx)
    (hu : u (ix3 0 (y 1) (y 2)) = A7 (ix3 (k 0) (k 1) (k 2)))
    (hg : ∀ j : Fin 256, g (ix4 0 (y 1) j (y 2)) = A1 (ix4 (k 0) (k 1) j (k 2)))
    (hmj : ∀ j : Fin 256, mj (ix3 0 j 0) = A9 (ix3 (k 0) j 0))
    (hw : ∀ j : Fin 256, w (ix3 0 j (y 2)) = A8 (ix3 (k 0) j (k 2)))
    (hmi : mi (ix3 0 (y 1) 0) = A9 (ix3 (k 0) (k 1) 0)) :
    k1_pay1 (F := Ideal) g mj w mi u y = aggAt A7 A1 A9 A8 (k 0) (k 1) (k 2) := by
  have hy : y = ix3 0 (y 1) (y 2) := by
    funext a
    match a with
    | ⟨0, _⟩ => exact Fin.ext (by have h1 : (y 0).val < 1 := (y 0).isLt; show (y 0).val = 0; omega)
    | ⟨1, _⟩ => rfl
    | ⟨2, _⟩ => rfl
  rw [hy]
  refine (Cert.GatedAgg.Payloads.agg_block g mj w mi u (y 1) (y 2)).trans ?_
  unfold aggAt
  rw [hu, hmi]
  simp only [hg, hmj, hw]

/-! ## The windows' index maps, decided once over the grid -/

/-- At every point the inputs' block indices follow the output's: the gates, the destination mask column and the first
    layer sit at the output's batch and destination block; the source mask column and the second layer at the output's
    batch and block 0 (all source nodes); every other block index is 0; and the output's stay in their ranges. -/
theorem idx_facts : ∀ t : Fin cfg1.N,
    win1_0.index t (0 : Fin 4) = win1_5.index t (0 : Fin 3) ∧ win1_0.index t (1 : Fin 4) = win1_5.index t (1 : Fin 3)
    ∧ win1_0.index t (2 : Fin 4) = 0 ∧ win1_0.index t (3 : Fin 4) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = win1_5.index t (1 : Fin 3)
    ∧ win1_3.index t (2 : Fin 3) = 0
    ∧ win1_4.index t (0 : Fin 3) = win1_5.index t (0 : Fin 3) ∧ win1_4.index t (1 : Fin 3) = win1_5.index t (1 : Fin 3)
    ∧ win1_4.index t (2 : Fin 3) = 0
    ∧ win1_5.index t (0 : Fin 3) ≤ 7 ∧ win1_5.index t (1 : Fin 3) ≤ 3 ∧ win1_5.index t (2 : Fin 3) = 0 :=
  (by decide +kernel : ∀ t : Fin grid1.N, _)

/-- Every block of the result array is some point's. -/
theorem idx_onto : ∀ (q0 : Fin 8) (q1 : Fin 4), ∃ t : Fin cfg1.N, win1_5.index t = ![q0.val, q1.val, 0] :=
  (by decide +kernel : ∀ (q0 : Fin 8) (q1 : Fin 4), ∃ t : Fin grid1.N, win1_5.index t = ![q0.val, q1.val, 0])

/-! ## What a point writes back -/

/-- Point `t` writes back block `t` of `G`. -/
theorem flushed_eq (c : Dev nD) (t : Fin cfg1.N) :
    (AggRegion.dat (F := Ideal) V c).flushed 5 t = ((cfg1.win 5).blk t).view.read (Elt Ideal) (G V c) := by
  show (cfg1.win 5).cut (grid1.coords t) ((AggRegion.dat (F := Ideal) V c).after 5 t) = _
  rw [AggRegion.after_5]
  unfold AggRegion.aggBlock
  rw [View.canon_unit_zero zeros3]
  simp only [View.ld_unit_zero (S := S1x64x256x128) zeros4, View.ld_unit_zero (S := S1x256x1) zeros3,
    View.ld_unit_zero (S := S1x256x128) zeros3, View.ld_unit_zero (S := S1x64x1) zeros3,
    View.ld_unit_zero (S := S1x64x128) zeros3]
  obtain ⟨e00, e01, e02, e03, e10, e11, e12, e20, e21, e22, e30, e31, e32, e40, e41, e42, b0, b1, e52⟩ := idx_facts t
  funext y
  show k1_pay1 (F := Ideal) (AggRegion.blk V c 0 t) (AggRegion.blk V c 1 t) (AggRegion.blk V c 2 t)
      (AggRegion.blk V c 3 t) (AggRegion.blk V c 4 t) y = G V c (((cfg1.win 5).blk t).view.emb y)
  have hy0 : (y 0).val < 1 := (y 0).isLt
  refine block_entry (AggRegion.blk V c 0 t) (AggRegion.blk V c 1 t) (AggRegion.blk V c 2 t) (AggRegion.blk V c 3 t)
    (AggRegion.blk V c 4 t) (V c main_v7) (V c main_arg1) (V c main_v9) (V c main_v8) y
    (((cfg1.win 5).blk t).view.emb y) ?_ ?_ ?_ ?_ ?_
  · -- the first layer's block sits at the output's batch and destination block
    show V c main_v7 (((cfg1.win 4).blk t).view.emb (ix3 0 (y 1) (y 2))) = _
    refine congrArg (V c main_v7) (funext fun a => Fin.ext ?_)
    match a with
    | ⟨0, _⟩ =>
      show win1_4.index t (0 : Fin 3) * 1 + 1 * 0 = win1_5.index t (0 : Fin 3) * 1 + 1 * (y 0).val
      omega
    | ⟨1, _⟩ =>
      show win1_4.index t (1 : Fin 3) * 64 + 1 * (y 1).val = win1_5.index t (1 : Fin 3) * 64 + 1 * (y 1).val
      omega
    | ⟨2, _⟩ =>
      show win1_4.index t (2 : Fin 3) * 128 + 1 * (y 2).val = win1_5.index t (2 : Fin 3) * 128 + 1 * (y 2).val
      omega
  · -- the gates' block: the output's batch and destination block, all source nodes, all features
    intro j
    show V c main_arg1 (((cfg1.win 0).blk t).view.emb (ix4 0 (y 1) j (y 2))) = _
    refine congrArg (V c main_arg1) (funext fun a => Fin.ext ?_)
    match a with
    | ⟨0, _⟩ =>
      show win1_0.index t (0 : Fin 4) * 1 + 1 * 0 = win1_5.index t (0 : Fin 3) * 1 + 1 * (y 0).val
      omega
    | ⟨1, _⟩ =>
      show win1_0.index t (1 : Fin 4) * 64 + 1 * (y 1).val = win1_5.index t (1 : Fin 3) * 64 + 1 * (y 1).val
      omega
    | ⟨2, _⟩ =>
      show win1_0.index t (2 : Fin 4) * 256 + 1 * j.val = j.val
      omega
    | ⟨3, _⟩ =>
      show win1_0.index t (3 : Fin 4) * 128 + 1 * (y 2).val = win1_5.index t (2 : Fin 3) * 128 + 1 * (y 2).val
      omega
  · -- the source mask column: the output's batch, all source nodes
    intro j
    show V c main_v9 (((cfg1.win 1).blk t).view.emb (ix3 0 j 0)) = _
    refine congrArg (V c main_v9) (funext fun a => Fin.ext ?_)
    match a with
    | ⟨0, _⟩ =>
      show win1_1.index t (0 : Fin 3) * 1 + 1 * 0 = win1_5.index t (0 : Fin 3) * 1 + 1 * (y 0).val
      omega
    | ⟨1, _⟩ =>
      show win1_1.index t (1 : Fin 3) * 256 + 1 * j.val = j.val
      omega
    | ⟨2, _⟩ =>
      show win1_1.index t (2 : Fin 3) * 1 + 1 * 0 = 0
      omega
  · -- the second layer's block: the output's batch, all source nodes, all features
    intro j
    show V c main_v8 (((cfg1.win 2).blk t).view.emb (ix3 0 j (y 2))) = _
    refine congrArg (V c main_v8) (funext fun a => Fin.ext ?_)
    match a with
    | ⟨0, _⟩ =>
      show win1_2.index t (0 : Fin 3) * 1 + 1 * 0 = win1_5.index t (0 : Fin 3) * 1 + 1 * (y 0).val
      omega
    | ⟨1, _⟩ =>
      show win1_2.index t (1 : Fin 3) * 256 + 1 * j.val = j.val
      omega
    | ⟨2, _⟩ =>
      show win1_2.index t (2 : Fin 3) * 128 + 1 * (y 2).val = win1_5.index t (2 : Fin 3) * 128 + 1 * (y 2).val
      omega
  · -- the destination mask column: the output's batch and destination block
    show V c main_v9 (((cfg1.win 3).blk t).view.emb (ix3 0 (y 1) 0)) = _
    refine congrArg (V c main_v9) (funext fun a => Fin.ext ?_)
    match a with
    | ⟨0, _⟩ =>
      show win1_3.index t (0 : Fin 3) * 1 + 1 * 0 = win1_5.index t (0 : Fin 3) * 1 + 1 * (y 0).val
      omega
    | ⟨1, _⟩ =>
      show win1_3.index t (1 : Fin 3) * 64 + 1 * (y 1).val = win1_5.index t (1 : Fin 3) * 64 + 1 * (y 1).val
      omega
    | ⟨2, _⟩ =>
      show win1_3.index t (2 : Fin 3) * 1 + 1 * 0 = 0
      omega

/-! ## The blocks tile the result array -/

/-- An index of the result array is in point `t`'s block iff each coordinate is in the block's range on its axis. -/
theorem mem_blk (t : Fin cfg1.N) (i : S8x256x128.Idx) :
    i ∈ ((cfg1.win 5).blk t).view.set ↔ ∀ a : Fin 3, win1_5.index t a * S1x64x128.size a ≤ (i a).val
      ∧ (i a).val < win1_5.index t a * S1x64x128.size a + S1x64x128.size a := by
  show i ∈ ((View.whole main_v10).slice (win1_5.rect t)).set ↔ _
  rw [View.set_slice_whole, Rect.mem_set_unit]
  exact Iff.rfl

/-- Every index of the result array lies in the block of the point that handles its batch and its run of 64
    destination nodes, and every point writes back. -/
theorem cover (i : S8x256x128.Idx) :
    ∃ t : Fin cfg1.N, (cfg1.win 5).flush t = true ∧ i ∈ ((cfg1.win 5).blk t).view.set := by
  have hi0 : (i 0).val < 8 := (i 0).isLt
  have hi1 : (i 1).val < 256 := (i 1).isLt
  have hi2 : (i 2).val < 128 := (i 2).isLt
  obtain ⟨t, ht⟩ := idx_onto ⟨(i 0).val, hi0⟩ ⟨(i 1).val / 64, by omega⟩
  have q0 : win1_5.index t (0 : Fin 3) = (i 0).val := congrFun ht 0
  have q1 : win1_5.index t (1 : Fin 3) = (i 1).val / 64 := congrFun ht 1
  have q2 : win1_5.index t (2 : Fin 3) = 0 := congrFun ht 2
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 64 ≤ (i 1).val ∧ (i 1).val < win1_5.index t (1 : Fin 3) * 64 + 64
    omega
  | ⟨2, _⟩ =>
    show win1_5.index t (2 : Fin 3) * 128 ≤ (i 2).val ∧ (i 2).val < win1_5.index t (2 : Fin 3) * 128 + 128
    omega

/-! ## The result array after the region -/

/-- After the last point the result array holds `G`. -/
theorem final_G (c : Dev nD) : (AggRegion.dat (F := Ideal) V c).arrAt 5 cfg1.N = G V c :=
  (AggRegion.dat (F := Ideal) V c).arrAt_eq_of_cover 5 (G V c) (fun t _ => flushed_eq V c t) cover

/-- `G` at an index given by its coordinates. -/
theorem G_apply (c : Dev nD) (b : Fin 8) (i : Fin 256) (h : Fin 128) :
    G V c (ix3 b i h) = aggAt (V c main_v7) (V c main_arg1) (V c main_v9) (V c main_v8) b i h := rfl

/-- The same, spelt out at an index, the four arrays the region reads named as functions into the extended reals
    (`u` the first layer, `g` the gates, `m` the mask column, `w` the second layer): the first layer's entry plus the
    destination mask times the gated messages, divided by ε plus the destination mask times the gate mass, both sums
    over the 256 source nodes. -/
theorem final (c : Dev nD) (u : S8x256x128.Idx → EReal) (g : S8x256x256x128.Idx → EReal) (m : S8x256x1.Idx → EReal)
    (w : S8x256x128.Idx → EReal) (hu : V c main_v7 = u) (hg : V c main_arg1 = g) (hm : V c main_v9 = m)
    (hw : V c main_v8 = w) :
    (AggRegion.dat (F := Ideal) V c).arrAt 5 cfg1.N
      = fun idx : S8x256x128.Idx => u idx + Ideal.div
          (m (ix3 (idx 0) (idx 1) 0) * ∑ j : Fin 256, (g (ix4 (idx 0) (idx 1) j (idx 2)) * m (ix3 (idx 0) j 0)) * w (ix3 (idx 0) j (idx 2)))
          (Cert.GatedAgg.eps + m (ix3 (idx 0) (idx 1) 0) * ∑ j : Fin 256, g (ix4 (idx 0) (idx 1) j (idx 2)) * m (ix3 (idx 0) j 0)) := by
  subst hu hg hm hw
  rw [final_G]
  funext idx
  show aggAt (V c main_v7) (V c main_arg1) (V c main_v9) (V c main_v8) (idx 0) (idx 1) (idx 2) = _
  unfold aggAt
  exact congrArg (· + _) (congrArg (V c main_v7) (eq_ix3 idx).symm)

end Cert.KernelIdeal.AggValue

end
-- ==== Proof.ResultValue.lean ====
/-
  The result array is the specification.

  After the second region the result buffer holds, entry by entry, the aggregation formula over the four arrays that
  region reads: the first layer and the second layer as [8, 256, 128] arrays, the edge gates, and the mask with a trailing
  unit axis. Each of the four is a relabelling of something earlier: the two layers are the first region's two results
  (rows b · 256 + n of the flattened masked linear layers), whose own inputs are the flattened node features, the mask
  column, the transposed weights and the bias rows; the gates and the mask are the arguments themselves. Substituting
  entry by entry turns the formula into the specification's, with no algebra: the specification is written in the
  arrangement the two regions compute.
-/
import proofs.«102665_j32633161515440_2_alg».proof.Proof.Fold
import proofs.«102665_j32633161515440_2_alg».proof.Proof.HostStages
import proofs.«102665_j32633161515440_2_alg».proof.Proof.LayerValue
import proofs.«102665_j32633161515440_2_alg».proof.Proof.AggValue
import proofs.«102665_j32633161515440_2_alg».proof.Proof.Spec
import Idealize.ShloMosaic.Lib.ValueIdx

noncomputable section

open scoped BigOperators

namespace Cert.KernelIdeal.ResultValue

open Cert.KernelIdeal Cert.KernelIdeal.Gen Cert.GatedAgg
open Idealize.ShloMosaic Idealize.ShloMosaic.TcCoe Idealize.ShloMosaic.ValueIdx

/-! ## The two formulas over plain functions -/

/-- A flattened masked linear layer at row b · 256 + n is the specification's layer at node n of batch b, once the
    flattened features, the mask column, the transposed weights and the bias row are read back as the arguments. -/
theorem layer_of_entries (x : Nodes) (mk : Mask) (W : Weights) (β : Bias)
    (xf : S2048x128.Idx → EReal) (mf : S2048x1.Idx → EReal) (wt : S128x128.Idx → EReal) (βr : S1x128.Idx → EReal)
    (hx : ∀ (b : Fin 8) (n : Fin 256) (k : Fin 128), xf (ix2 (⟨b.val * 256 + n.val, by omega⟩ : Fin 2048) k) = x (ix3 b n k))
    (hm : ∀ (b : Fin 8) (n : Fin 256), mf (ix2 (⟨b.val * 256 + n.val, by omega⟩ : Fin 2048) (0 : Fin 1)) = mk (ix2 b n))
    (hw : ∀ k o : Fin 128, wt (ix2 k o) = W (ix2 o k))
    (hβ : ∀ o : Fin 128, βr (ix2 (0 : Fin 1) o) = β (ix1 o))
    (b : Fin 8) (n : Fin 256) (o : Fin 128) :
    ((∑ k : Fin 128, xf (ix2 (⟨b.val * 256 + n.val, by omega⟩ : Fin 2048) k) * wt (ix2 k o)) + βr (ix2 (0 : Fin 1) o))
        * mf (ix2 (⟨b.val * 256 + n.val, by omega⟩ : Fin 2048) (0 : Fin 1))
      = layer x mk W β b n o := by
  unfold layer
  refine congrArg₂ (· * ·) (congrArg₂ (· + ·) (Finset.sum_congr rfl fun k _ => ?_) (hβ o)) (hm b n)
  exact congrArg₂ (· * ·) (hx b n k) (hw k o)

/-- The aggregation formula over the second region's four arrays is the specification's entry, once the two layer
    arrays are the specification's layers, the gates the gates and the mask array the mask. -/
theorem agg_of_entries (x : Nodes) (g : Edges) (mk : Mask) (Wu : Weights) (bu : Bias) (Wv : Weights) (bv : Bias)
    (u w : S8x256x128.Idx → EReal) (g' : S8x256x256x128.Idx → EReal) (m3 : S8x256x1.Idx → EReal)
    (hu : ∀ (b : Fin 8) (n : Fin 256) (h : Fin 128), u (ix3 b n h) = layer x mk Wu bu b n h)
    (hw : ∀ (b : Fin 8) (n : Fin 256) (h : Fin 128), w (ix3 b n h) = layer x mk Wv bv b n h)
    (hg : ∀ (b : Fin 8) (i j : Fin 256) (h : Fin 128), g' (ix4 b i j h) = g (ix4 b i j h))
    (hm : ∀ (b : Fin 8) (n : Fin 256), m3 (ix3 b n (0 : Fin 1)) = mk (ix2 b n))
    (b : Fin 8) (i : Fin 256) (h : Fin 128) :
    u (ix3 b i h)
        + Ideal.div (m3 (ix3 b i (0 : Fin 1)) * ∑ j : Fin 256, (g' (ix4 b i j h) * m3 (ix3 b j (0 : Fin 1))) * w (ix3 b j h))
            (eps + m3 (ix3 b i (0 : Fin 1)) * ∑ j : Fin 256, g' (ix4 b i j h) * m3 (ix3 b j (0 : Fin 1)))
      = agg x g mk Wu bu Wv bv b i h := by
  unfold agg gatedSum gateMass
  refine congrArg₂ (· + ·) (hu b i h) (congrArg₂ Ideal.div ?_ ?_)
  · refine congrArg₂ (· * ·) (hm b i) (Finset.sum_congr rfl fun j _ => ?_)
    exact congrArg₂ (· * ·) (congrArg₂ (· * ·) (hg b i j h) (hm b j)) (hw b j h)
  · refine congrArg₂ (· + ·) rfl (congrArg₂ (· * ·) (hm b i) (Finset.sum_congr rfl fun j _ => ?_))
    exact congrArg₂ (· * ·) (hg b i j h) (hm b j)

/-! ## The buffers the second region reads, traced back to the launch -/

section Buffers

variable (m : (ℓ : Loc nD τ sig) → Buf (Elt Ideal) ℓ) (c : Dev nD)

/-- The edge gates reach the second region as launched: no stretch and no region writes them. -/
theorem gates_entry : Fold.W3 m c (Proc.devRef .tc main_arg1) = m ((c : Thread nD τ).loc main_arg1) :=
  calc Fold.W3 m c (Proc.devRef .tc main_arg1)
    _ = Fold.W2 m c (Proc.devRef .tc main_arg1) := HostStages.gates_kept (Fold.W2 m c)
    _ = Fold.W1 m c (Proc.devRef .tc main_arg1) := Fold.W2_of_ne m c main_arg1 (by decide)
    _ = Fold.W0 m c (Proc.devRef .tc main_arg1) := StableHlo.after_of_writes_sub hostOps0 _ hostOps0_writes (by decide)
    _ = m ((c : Thread nD τ).loc main_arg1) := rfl

/-- The mask after the first region is the mask as launched. -/
theorem mask_entry : Fold.W2 m c (Proc.devRef .tc main_arg2) = m ((c : Thread nD τ).loc main_arg2) :=
  calc Fold.W2 m c (Proc.devRef .tc main_arg2)
    _ = Fold.W1 m c (Proc.devRef .tc main_arg2) := Fold.W2_of_ne m c main_arg2 (by decide)
    _ = Fold.W0 m c (Proc.devRef .tc main_arg2) := StableHlo.after_of_writes_sub hostOps0 _ hostOps0_writes (by decide)
    _ = m ((c : Thread nD τ).loc main_arg2) := rfl

/-- The mask array the second region reads, at (b, n, 0), is the mask at (b, n). -/
theorem mask3_entry (b : Fin 8) (n : Fin 256) :
    Fold.W3 m c (Proc.devRef .tc main_v9) (ix3 b n (0 : Fin 1)) = m ((c : Thread nD τ).loc main_arg2) (ix2 b n) :=
  (HostStages.mask3_apply (Fold.W2 m c) b n).trans (congrFun (mask_entry m c) (ix2 b n))

/-- The first layer the second region reads, at node n of batch b, is row b · 256 + n of the first region's first
    result. -/
theorem first_entry (b : Fin 8) (n : Fin 256) (h : Fin 128) :
    Fold.W3 m c (Proc.devRef .tc main_v7) (ix3 b n h)
      = (LayerRegion.dat (F := Ideal) (Fold.V1 m) c).arrAt 6 cfg0.N (ix2 (⟨b.val * 256 + n.val, by omega⟩ : Fin 2048) h) :=
  (HostStages.first_apply (Fold.W2 m c) b n h).trans (congrFun (Fold.W2_arr m c 6) _)

/-- The second layer likewise, of the second result. -/
theorem second_entry (b : Fin 8) (n : Fin 256) (h : Fin 128) :
    Fold.W3 m c (Proc.devRef .tc main_v8) (ix3 b n h)
      = (LayerRegion.dat (F := Ideal) (Fold.V1 m) c).arrAt 7 cfg0.N (ix2 (⟨b.val * 256 + n.val, by omega⟩ : Fin 2048) h) :=
  (HostStages.second_apply (Fold.W2 m c) b n h).trans (congrFun (Fold.W2_arr m c 7) _)

end Buffers

/-! ## The result array -/

section Result

variable (m : (ℓ : Loc nD τ sig) → Buf (Elt Ideal) ℓ) (c : Dev nD)

/-- The first layer the second region reads is the specification's first layer of the launch arrays. -/
theorem first_layer (b : Fin 8) (n : Fin 256) (h : Fin 128) :
    Fold.W3 m c (Proc.devRef .tc main_v7) (ix3 b n h)
      = layer (m ((c : Thread nD τ).loc main_arg0)) (m ((c : Thread nD τ).loc main_arg2))
          (m ((c : Thread nD τ).loc main_arg3)) (m ((c : Thread nD τ).loc main_arg4)) b n h := by
  refine (first_entry m c b n h).trans ?_
  refine (congrFun (LayerValue.first_final (Fold.V1 m) c) _).trans ?_
  refine (LayerValue.layerFlat_apply _ _ _ _ _).trans ?_
  exact layer_of_entries (m ((c : Thread nD τ).loc main_arg0)) (m ((c : Thread nD τ).loc main_arg2))
    (m ((c : Thread nD τ).loc main_arg3)) (m ((c : Thread nD τ).loc main_arg4))
    (Fold.V1 m c main_v0) (Fold.V1 m c main_v1) (Fold.V1 m c main_v2) (Fold.V1 m c main_v4)
    (fun b n k => HostStages.rows_apply (Fold.W0 m c) b n k) (fun b n => HostStages.maskcol_apply (Fold.W0 m c) b n)
    (fun k o => HostStages.wu_apply (Fold.W0 m c) k o) (fun o => HostStages.bu_apply (Fold.W0 m c) o) b n h

/-- The second layer the second region reads is the specification's second layer of the launch arrays. -/
theorem second_layer (b : Fin 8) (n : Fin 256) (h : Fin 128) :
    Fold.W3 m c (Proc.devRef .tc main_v8) (ix3 b n h)
      = layer (m ((c : Thread nD τ).loc main_arg0)) (m ((c : Thread nD τ).loc main_arg2))
          (m ((c : Thread nD τ).loc main_arg5)) (m ((c : Thread nD τ).loc main_arg6)) b n h := by
  refine (second_entry m c b n h).trans ?_
  refine (congrFun (LayerValue.second_final (Fold.V1 m) c) _).trans ?_
  refine (LayerValue.layerFlat_apply _ _ _ _ _).trans ?_
  exact layer_of_entries (m ((c : Thread nD τ).loc main_arg0)) (m ((c : Thread nD τ).loc main_arg2))
    (m ((c : Thread nD τ).loc main_arg5)) (m ((c : Thread nD τ).loc main_arg6))
    (Fold.V1 m c main_v0) (Fold.V1 m c main_v1) (Fold.V1 m c main_v3) (Fold.V1 m c main_v5)
    (fun b n k => HostStages.rows_apply (Fold.W0 m c) b n k) (fun b n => HostStages.maskcol_apply (Fold.W0 m c) b n)
    (fun k o => HostStages.wv_apply (Fold.W0 m c) k o) (fun o => HostStages.bv_apply (Fold.W0 m c) o) b n h

/-- THE RESULT ARRAY after the whole program is the specification's array of the seven launch arrays. -/
theorem result_eq :
    (Fold.W4 m c (Proc.devRef .tc main_v10) : S8x256x128.Idx → EReal)
      = aggArray (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (Fold.W4_result m c).trans ?_
  refine (AggValue.final_G (Fold.V3 m) c).trans ?_
  funext idx
  obtain ⟨b, i, h, rfl⟩ : ∃ (b : Fin 8) (i : Fin 256) (h : Fin 128), idx = ix3 b i h :=
    ⟨idx 0, idx 1, idx 2, eq_ix3 idx⟩
  refine (AggValue.G_apply (Fold.V3 m) c b i h).trans ?_
  unfold AggValue.aggAt
  exact agg_of_entries (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))
    (Fold.V3 m c main_v7) (Fold.V3 m c main_v8) (Fold.V3 m c main_arg1) (Fold.V3 m c main_v9)
    (first_layer m c) (second_layer m c) (fun b i j h => congrFun (gates_entry m c) (ix4 b i j h))
    (mask3_entry m c) b i h

end Result

end Cert.KernelIdeal.ResultValue

end
-- ==== Proof.BitsLayerRegion.lean ====
/-
  The first region: the two masked linear layers, computed 512 rows of the flattened (batch × node) axis at a time.
  At a grid point `t` the body is handed the rows' features (a 512 × 128 block), their mask column (512 × 1), the two
  transposed weight matrices and the two bias rows (the same blocks at every point), and leaves in each of its two
  output buffers the block  (rows · Wᵀ + bias) · mask  of one layer.  This module states what each output buffer
  holds after the body as a function of the input blocks, proves the body's triple against that, and packages the
  region's proof data: after the body every input buffer still holds its block and each output buffer holds the
  layer's block; nothing is owed to another core and nothing is kept from one point to the next.
-/
import proofs.«102665_j32633161515440_2_alg».proof.Proof.Gen.Kernel.Launch
import proofs.«102665_j32633161515440_2_alg».proof.Proof.Gen.Kernel.Skeleton
import proofs.«102665_j32633161515440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LayerRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or not
    (where it did not, the block index has not moved since the point before). -/
theorem found0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the pipeline fetched it there or not
    (where it did not, the block index has not moved since the point before). -/
theorem found1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the pipeline fetched it there or not
    (where it did not, the block index has not moved since the point before). -/
theorem found2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether the pipeline fetched it there or not
    (where it did not, the block index has not moved since the point before). -/
theorem found3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether the pipeline fetched it there or not
    (where it did not, the block index has not moved since the point before). -/
theorem found4_of {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, whether the pipeline fetched it there or not
    (where it did not, the block index has not moved since the point before). -/
theorem found5_of {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## What the body leaves in each output buffer -/

/-- The whole-buffer rectangles the body loads and stores through. -/
abbrev rRows : Rect S512x128 := Rect.unit (s := S512x128) ![0, 0] S512x128.size inb_S512x128_S512x128_0_0
abbrev rCol : Rect S512x1 := Rect.unit (s := S512x1) ![0, 0] S512x1.size inb_S512x1_S512x1_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- The first layer's block: the one store into the first output buffer, over the rows, the mask column, the first
    weight matrix and the first bias row. -/
def firstLayer (x : Vec F S512x128 .f32) (mk : Vec F S512x1 .f32) (w : Vec F S128x128 .f32) (b : Vec F S1x128 .f32) : Vec F S512x128 .f32 :=
  View.canon [⟨rRows, k0_pay3 (View.ld x rRows) (View.ld mk rCol) (View.ld w rMat) (View.ld b rRow)⟩]

/-- The second layer's block, likewise, over the second weight matrix and bias row. -/
def secondLayer (x : Vec F S512x128 .f32) (mk : Vec F S512x1 .f32) (w : Vec F S128x128 .f32) (b : Vec F S1x128 .f32) : Vec F S512x128 .f32 :=
  View.canon [⟨rRows, k0_pay4 (View.ld x rRows) (View.ld mk rCol) (View.ld w rMat) (View.ld b rRow)⟩]

/-- One whole-buffer store covers the buffer. -/
theorem cover_rows (p0 : Vec F S512x128 .f32) (y : S512x128.Idx) :
    ∃ pc ∈ ([⟨rRows, p0⟩] : List (View.Piece (Elt F) S512x128 .f32)), y ∈ pc.1.set :=
  View.cover_of_tiled [⟨rRows, p0⟩] S512x128.size (by rfl) y

/-! ## The body's triple -/

set_option maxHeartbeats 1000000 in
/-- The body on whole staging memrefs, the six inputs' at read contents and the two outputs' at anything, runs to the
    continuation holding the inputs' as they were and the outputs' at the two layers' blocks. -/
theorem sound_kernel (c : Dev nD) (E : Set ℕ) (i : grid0.Coords)
    (arg1 : Memref sig .tc .vmem S512x128 .f32) (harg1 : arg1.IsWhole) (arg2 : Memref sig .tc .vmem S512x1 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S512x128 .f32) (harg7 : arg7.IsWhole) (arg8 : Memref sig .tc .vmem S512x128 .f32) (harg8 : arg8.IsWhole)
    (x0 : Vec F S512x128 .f32) (x1 : Vec F S512x1 .f32) (x2 : Vec F S128x128 .f32) (x3 : Vec F S1x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (firstLayer x0 x1 x2 x3) ∗ owns (c : Thread nD τ) arg8 fullShare (secondLayer x0 x1 x4 x5)) -∗ K ⟨⟩))
      ⊢ wp frame (wpE (defs₀ (F := F)) Variants.none c none) E (cc0__uv_kernel i arg1 harg1 arg2 harg2 arg3 harg3 arg4 harg4 arg5 harg5 arg6 harg6 arg7 harg7 arg8 harg8) K := by
  simp only [cc0__uv_kernel_eq_skeleton]; unfold cc0__uv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The region's proof data -/

/-- The proof data of the first region on core `c`: the arrays as the region finds them; after the body at point `t`
    each input's buffer at its block and each output's at its layer's block of the input blocks; nothing carried
    between points beyond the buffers no window stages and the generator register; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => firstLayer (blk V c 0 t) (blk V c 1 t) (blk V c 2 t) (blk V c 3 t)
    | ⟨7, _⟩ => secondLayer (blk V c 0 t) (blk V c 1 t) (blk V c 4 t) (blk V c 5 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) :
    (dat V c).after 6 t = firstLayer (blk V c 0 t) (blk V c 1 t) (blk V c 2 t) (blk V c 3 t) := by dsimp only [dat]
theorem after_7 (c : Dev nD) (t : Fin cfg0.N) :
    (dat V c).after 7 t = secondLayer (blk V c 0 t) (blk V c 1 t) (blk V c 4 t) (blk V c 5 t) := by dsimp only [dat]

/-- Each input's current staging buffer holds its block at every point. -/
theorem found_0 (c : Dev nD) (t : Fin cfg0.N) (d) : (dat V c).before 0 t d = blk V c 0 t := found0_of V (dat V c) (A_eq V c 0) (after_0 V c) t d
theorem found_1 (c : Dev nD) (t : Fin cfg0.N) (d) : (dat V c).before 1 t d = blk V c 1 t := found1_of V (dat V c) (A_eq V c 1) (after_1 V c) t d
theorem found_2 (c : Dev nD) (t : Fin cfg0.N) (d) : (dat V c).before 2 t d = blk V c 2 t := found2_of V (dat V c) (A_eq V c 2) (after_2 V c) t d
theorem found_3 (c : Dev nD) (t : Fin cfg0.N) (d) : (dat V c).before 3 t d = blk V c 3 t := found3_of V (dat V c) (A_eq V c 3) (after_3 V c) t d
theorem found_4 (c : Dev nD) (t : Fin cfg0.N) (d) : (dat V c).before 4 t d = blk V c 4 t := found4_of V (dat V c) (A_eq V c 4) (after_4 V c) t d
theorem found_5 (c : Dev nD) (t : Fin cfg0.N) (d) : (dat V c).before 5 t d = blk V c 5 t := found5_of V (dat V c) (A_eq V c 5) (after_5 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.LayerRegion

end
-- ==== Proof.BitsAggRegion.lean ====
/-
  The second region: the gated neighbour aggregation, 64 destination nodes of one batch at a time.  At a grid point
  the body is handed the destination nodes' edge gates against every source node (a 1 × 64 × 256 × 128 block), the
  batch's mask as a column over the source nodes (1 × 256 × 1), the batch's second layer (1 × 256 × 128), the
  destination nodes' mask column (1 × 64 × 1) and their first layer (1 × 64 × 128), and leaves in its output buffer
  the block  first layer + (mask · Σ_j gate·mask_j·second layer_j) ÷ (ε + mask · Σ_j gate·mask_j).  This module states
  what the output buffer holds after the body as a function of the input blocks, proves the body's triple against
  that, and packages the region's proof data.
-/
import proofs.«102665_j32633161515440_2_alg».proof.Proof.Gen.Kernel.Launch
import proofs.«102665_j32633161515440_2_alg».proof.Proof.Gen.Kernel.Skeleton
import proofs.«102665_j32633161515440_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: every statement below is made at this parameter
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or not. -/
theorem found0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, whether the pipeline fetched it there or not. -/
theorem found1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, whether the pipeline fetched it there or not. -/
theorem found2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, whether the pipeline fetched it there or not. -/
theorem found3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, whether the pipeline fetched it there or not. -/
theorem found4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output buffer -/

/-- The whole-buffer rectangles the body loads and stores through. -/
abbrev rGates : Rect S1x64x256x128 := Rect.unit (s := S1x64x256x128) ![0, 0, 0, 0] S1x64x256x128.size inb_S1x64x256x128_S1x64x256x128_0_0_0_0
abbrev rSrcMask : Rect S1x256x1 := Rect.unit (s := S1x256x1) ![0, 0, 0] S1x256x1.size inb_S1x256x1_S1x256x1_0_0_0
abbrev rSrcLayer : Rect S1x256x128 := Rect.unit (s := S1x256x128) ![0, 0, 0] S1x256x128.size inb_S1x256x128_S1x256x128_0_0_0
abbrev rDstMask : Rect S1x64x1 := Rect.unit (s := S1x64x1) ![0, 0, 0] S1x64x1.size inb_S1x64x1_S1x64x1_0_0_0
abbrev rDst : Rect S1x64x128 := Rect.unit (s := S1x64x128) ![0, 0, 0] S1x64x128.size inb_S1x64x128_S1x64x128_0_0_0

/-- The aggregation's block: the one store into the output buffer, over the gates, the source mask column, the second
    layer, the destination mask column and the first layer. -/
def aggBlock (g : Vec F S1x64x256x128 .f32) (mj : Vec F S1x256x1 .f32) (v : Vec F S1x256x128 .f32) (mi : Vec F S1x64x1 .f32)
    (u : Vec F S1x64x128 .f32) : Vec F S1x64x128 .f32 :=
  View.canon [⟨rDst, k1_pay1 (View.ld g rGates) (View.ld mj rSrcMask) (View.ld v rSrcLayer) (View.ld mi rDstMask) (View.ld u rDst)⟩]

/-- One whole-buffer store covers the buffer. -/
theorem cover_out (p0 : Vec F S1x64x128 .f32) (y : S1x64x128.Idx) :
    ∃ pc ∈ ([⟨rDst, p0⟩] : List (View.Piece (Elt F) S1x64x128 .f32)), y ∈ pc.1.set :=
  View.cover_of_tiled [⟨rDst, p0⟩] S1x64x128.size (by rfl) y

/-! ## The body's triple -/

set_option maxHeartbeats 1000000 in
/-- The body on whole staging memrefs, the five inputs' at read contents and the output's at anything, runs to the
    continuation holding the inputs' as they were and the output's at the aggregation's block. -/
theorem sound_kernel (c : Dev nD) (E : Set ℕ) (i : grid1.Coords)
    (arg2 : Memref sig .tc .vmem S1x64x256x128 .f32) (harg2 : arg2.IsWhole) (arg3 : Memref sig .tc .vmem S1x256x1 .f32) (harg3 : arg3.IsWhole)
    (arg4 : Memref sig .tc .vmem S1x256x128 .f32) (harg4 : arg4.IsWhole) (arg5 : Memref sig .tc .vmem S1x64x1 .f32) (harg5 : arg5.IsWhole)
    (arg6 : Memref sig .tc .vmem S1x64x128 .f32) (harg6 : arg6.IsWhole) (arg7 : Memref sig .tc .vmem S1x64x128 .f32) (harg7 : arg7.IsWhole)
    (x0 : Vec F S1x64x256x128 .f32) (x1 : Vec F S1x256x1 .f32) (x2 : Vec F S1x256x128 .f32) (x3 : Vec F S1x64x1 .f32)
    (x4 : Vec F S1x64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (aggBlock x0 x1 x2 x3 x4)) -∗ K ⟨⟩))
      ⊢ wp frame (wpE (defs₀ (F := F)) Variants.none c none) E (cc1__agg_kernel i arg2 harg2 arg3 harg3 arg4 harg4 arg5 harg5 arg6 harg6 arg7 harg7) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The region's proof data -/

/-- The proof data of the second region on core `c`: the arrays as the region finds them; after the body at point `t`
    each input's buffer at its block and the output's at the aggregation's block of the input blocks; nothing carried
    between points; nothing owed.  The mask array is handed to the region twice — once windowed by source nodes, once by
    destination nodes — so the two windows hold it at the two halves of the full share; every other input at the full share. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => aggBlock (blk V c 0 t) (blk V c 1 t) (blk V c 2 t) (blk V c 3 t) (blk V c 4 t)
  Φ _ := Pipeline.ΦA spec1 c
  q w := match w with
    | ⟨1, _⟩ => fullShare.left
    | ⟨3, _⟩ => fullShare.right
    | _ => fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = aggBlock (blk V c 0 t) (blk V c 1 t) (blk V c 2 t) (blk V c 3 t) (blk V c 4 t) := by dsimp only [dat]

/-- Each input's current staging buffer holds its block at every point. -/
theorem found_0 (c : Dev nD) (t : Fin cfg1.N) (d) : (dat V c).before 0 t d = blk V c 0 t := found0_of V (dat V c) (A_eq V c 0) (after_0 V c) t d
theorem found_1 (c : Dev nD) (t : Fin cfg1.N) (d) : (dat V c).before 1 t d = blk V c 1 t := found1_of V (dat V c) (A_eq V c 1) (after_1 V c) t d
theorem found_2 (c : Dev nD) (t : Fin cfg1.N) (d) : (dat V c).before 2 t d = blk V c 2 t := found2_of V (dat V c) (A_eq V c 2) (after_2 V c) t d
theorem found_3 (c : Dev nD) (t : Fin cfg1.N) (d) : (dat V c).before 3 t d = blk V c 3 t := found3_of V (dat V c) (A_eq V c 3) (after_3 V c) t d
theorem found_4 (c : Dev nD) (t : Fin cfg1.N) (d) : (dat V c).before 4 t d = blk V c 4 t := found4_of V (dat V c) (A_eq V c 4) (after_4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3, found_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.AggRegion

end
-- ==== Proof.BitsFold.lean ====
/-
  The buffers' contents followed through @main, boundary by boundary: six host operations (the flattening reshapes and
  the two transposes), the first region, three host reshapes, the second region.  A host stretch applies its
  operations; the first region leaves its two output arrays at what its write-backs fold to and every other buffer as
  found; the second region changes only the result array (its other arrays are inputs, never written).  No stretch
  writes an argument, so each argument's buffer walks back through the fold to its launch contents.
-/
import proofs.«102665_j32633161515440_2_alg».proof.Proof.BitsLayerRegion
import proofs.«102665_j32633161515440_2_alg».proof.Proof.BitsAggRegion
import proofs.«102665_j32633161515440_2_alg».proof.Proof.Gen.Kernel.Regions

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (LayerRegion.dat (V1 m) c).arrAt w cfg0.N
theorem W2_arr (c : Dev nD) (w : Fin cfg0.W) :
    W2 m c (Proc.devRef .tc (Pipeline.arrRef spec0 w)) = (LayerRegion.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (LayerRegion.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: the result array at what the pipeline leaves, every other buffer as entered (its
    other arrays are inputs, never written). -/
def W4 (c : Dev nD) : Valuation τ sig (Elt F) :=
  Function.update (W3 m c) (Proc.devRef .tc main_v10) ((AggRegion.dat (V3 m) c).arrAt 5 cfg1.N)
theorem W4_result (c : Dev nD) : W4 m c (Proc.devRef .tc main_v10) = (AggRegion.dat (V3 m) c).arrAt 5 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

end Cert.Kernel.Fold

end
-- ==== Proof.BitsWholeRun.lean ====
/-
  The whole run of @main.  Each region enters the pipeline's protocol from "every unscoped buffer at the stretch's entry
  contents, the generator register somewhere, nothing owed" and leaves it at the same with the exit contents: on entry
  the windows' arrays are taken out of the unscoped buffers, on exit they are put back at what the write-backs left.  The
  second region is handed the mask array twice — windowed by source nodes and by destination nodes — so on entry the
  mask's buffer is split into its two half shares, one per window, and on exit the halves are joined again; the array is
  an input of both windows and ends as it was found.  The conclusion: every weakly fair execution of @main terminates
  without a fault and ends with every unscoped buffer at the last boundary's contents — the arguments as launched, the
  result at the second region's folded write-backs.
-/
import proofs.«102665_j32633161515440_2_alg».proof.Proof.BitsFold

set_option maxRecDepth 16384

noncomputable section

namespace Cert.Kernel.WholeRun

open Cert.Kernel Cert.Kernel.Gen Cert.Kernel.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => LayerRegion.dat (V1 m) c
  | ⟨1, _⟩ => fun c => AggRegion.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register somewhere. -/
abbrev Tₙ (c : Dev nD) : sProp 𝕄 := iprop(StableHlo.held (c : Thread nD τ) (Pipeline.ucRefs τ sig) (W4 m c) ∗ ∃ r, prngReg c r)

/-! ## The second region's entry and exit: the mask's buffer split in two and joined again -/

/-- The second region's windowed arrays as one points-to per window, each over its whole buffer at the window's share. -/
theorem arrays_windows (c : Dev nD) (G : (w : Fin cfg1.W) → Buf (Elt F) ((cfg1.win w).arr.view.loc (c : Thread nD τ))) :
    (AggRegion.dat (V3 m) c).arrays G
      = bigSep Finset.univ fun w => ((((c : Thread nD τ).loc (Pipeline.arrRef spec1 w)) ↦{(AggRegion.dat (V3 m) c).share w} G w : sProp 𝕄)) := by
  unfold Pipeline.Dat.arrays
  exact bigSep_congr fun w _ => by rw [(arr_whole1 w).set_eq_univ]

theorem share_0 (c : Dev nD) : (AggRegion.dat (V3 m) c).share 0 = fullShare := rfl
theorem share_1 (c : Dev nD) : (AggRegion.dat (V3 m) c).share 1 = fullShare.left := rfl
theorem share_2 (c : Dev nD) : (AggRegion.dat (V3 m) c).share 2 = fullShare := rfl
theorem share_3 (c : Dev nD) : (AggRegion.dat (V3 m) c).share 3 = fullShare.right := rfl
theorem share_4 (c : Dev nD) : (AggRegion.dat (V3 m) c).share 4 = fullShare := rfl
theorem share_5 (c : Dev nD) : (AggRegion.dat (V3 m) c).share 5 = fullShare := rfl

set_option maxHeartbeats 1000000 in
set_option backward.isDefEq.respectTransparency.types false in
theorem entry_split (c : Dev nD) : (unscopedBufs c (V3 m c) : sProp 𝕄)
    ⊢ iprop((pdats m 1 c).arrays ((pdats m 1 c).arrAt · 0) ∗ Pipeline.unscopedRest (Ix := Unit) (Name := ℕ) (U := UR sig nD τ) (Lvl := ℕ) spec1 c (V3 m c)) := by
  rw [Pipeline.unscopedBufs_split₀ (Ix := Unit) (Name := ℕ) (U := UR sig nD τ) (Lvl := ℕ) cfgs 1 (fun w => winFacts₀1.arr_unscoped w) c (V3 m c)]
  refine sep_mono ?_ .rfl
  show _ ⊢ (AggRegion.dat (V3 m) c).arrays ((AggRegion.dat (V3 m) c).arrAt · 0)
  unfold Pipeline.arrBufs
  rw [arrays_windows, show (bigSep (Finset.univ.image (Pipeline.arrRef (cfgs 1).spec)) fun b : Ref sig .tc => (((c : Thread nD τ).loc b) ↦{fullShare} V3 m c b : sProp 𝕄))
      = iprop((((c : Thread nD τ).loc main_arg1) ↦{fullShare} V3 m c main_arg1) ∗ (((c : Thread nD τ).loc main_v9) ↦{fullShare} V3 m c main_v9)
          ∗ (((c : Thread nD τ).loc main_v8) ↦{fullShare} V3 m c main_v8) ∗ (((c : Thread nD τ).loc main_v7) ↦{fullShare} V3 m c main_v7)
          ∗ (((c : Thread nD τ).loc main_v10) ↦{fullShare} V3 m c main_v10))
      from bigSep_eq_bigSepL_of_eq [main_arg1, main_v9, main_v8, main_v7, main_v10] (by decide) (by decide) _, bigSep_W1, share_0, share_1, share_2, share_3, share_4, share_5]
  show _ ⊢ iprop((((c : Thread nD τ).loc main_arg1) ↦{fullShare} V3 m c main_arg1) ∗ (((c : Thread nD τ).loc main_v9) ↦{fullShare.left} V3 m c main_v9)
      ∗ (((c : Thread nD τ).loc main_v8) ↦{fullShare} V3 m c main_v8) ∗ (((c : Thread nD τ).loc main_v9) ↦{fullShare.right} V3 m c main_v9)
      ∗ (((c : Thread nD τ).loc main_v7) ↦{fullShare} V3 m c main_v7) ∗ (((c : Thread nD τ).loc main_v10) ↦{fullShare} V3 m c main_v10))
  iintro ⟨H1, H9, H8, H7, H10⟩
  ihave H9' := (pointsTo_share (PosShare.mem_left_op_right fullShare)).1 $$ H9
  icases H9' with ⟨H9l, H9r⟩
  isplitl [H1]; · iexact H1
  isplitl [H9l]; · iexact H9l
  isplitl [H8]; · iexact H8
  isplitl [H9r]; · iexact H9r
  isplitl [H7]; · iexact H7
  iexact H10
set_option maxHeartbeats 1000000 in
set_option backward.isDefEq.respectTransparency.types false in
theorem exit_join (c : Dev nD) : iprop((pdats m 1 c).arrays ((pdats m 1 c).arrAt · cfg1.N) ∗ Pipeline.unscopedRest (Ix := Unit) (Name := ℕ) (U := UR sig nD τ) (Lvl := ℕ) spec1 c (V3 m c))
    ⊢ (unscopedBufs c (V4 m c) : sProp 𝕄) := by
  rw [Pipeline.unscopedBufs_split₀ (Ix := Unit) (Name := ℕ) (U := UR sig nD τ) (Lvl := ℕ) cfgs 1 (fun w => winFacts₀1.arr_unscoped w) c (V4 m c)]
  refine BI.sep_mono ?_ ?_
  swap
  · -- the buffers no window names: the region changes none of them
    unfold Pipeline.unscopedRest
    refine Entails.of_eq (bigSep_congr fun b hb => ?_)
    have hne : b ≠ main_v10 := fun e => (Finset.mem_sdiff.mp hb).2 (Finset.mem_image.mpr ⟨5, Finset.mem_univ _, e ▸ rfl⟩)
    rw [show V4 m c b = V3 m c b from W4_of_ne m c b hne]
  show (AggRegion.dat (V3 m) c).arrays ((AggRegion.dat (V3 m) c).arrAt · cfg1.N) ⊢ _
  unfold Pipeline.arrBufs
  rw [arrays_windows, show (bigSep (Finset.univ.image (Pipeline.arrRef (cfgs 1).spec)) fun b : Ref sig .tc => (((c : Thread nD τ).loc b) ↦{fullShare} V4 m c b : sProp 𝕄))
      = iprop((((c : Thread nD τ).loc main_arg1) ↦{fullShare} V4 m c main_arg1) ∗ (((c : Thread nD τ).loc main_v9) ↦{fullShare} V4 m c main_v9)
          ∗ (((c : Thread nD τ).loc main_v8) ↦{fullShare} V4 m c main_v8) ∗ (((c : Thread nD τ).loc main_v7) ↦{fullShare} V4 m c main_v7)
          ∗ (((c : Thread nD τ).loc main_v10) ↦{fullShare} V4 m c main_v10))
      from bigSep_eq_bigSepL_of_eq [main_arg1, main_v9, main_v8, main_v7, main_v10] (by decide) (by decide) _, bigSep_W1, share_0, share_1, share_2, share_3, share_4, share_5,
    show V4 m c main_arg1 = V3 m c main_arg1 from W4_of_ne m c main_arg1 (by decide),
    show V4 m c main_v9 = V3 m c main_v9 from W4_of_ne m c main_v9 (by decide),
    show V4 m c main_v8 = V3 m c main_v8 from W4_of_ne m c main_v8 (by decide),
    show V4 m c main_v7 = V3 m c main_v7 from W4_of_ne m c main_v7 (by decide),
    show V4 m c main_v10 = (AggRegion.dat (V3 m) c).arrAt 5 cfg1.N from W4_result m c,
    (AggRegion.dat (V3 m) c).arrAt_in 0 rfl, (AggRegion.dat (V3 m) c).arrAt_in 1 rfl, (AggRegion.dat (V3 m) c).arrAt_in 2 rfl,
    (AggRegion.dat (V3 m) c).arrAt_in 3 rfl, (AggRegion.dat (V3 m) c).arrAt_in 4 rfl,
    AggRegion.A_eq (V3 m) c 0, AggRegion.A_eq (V3 m) c 1, AggRegion.A_eq (V3 m) c 2, AggRegion.A_eq (V3 m) c 3, AggRegion.A_eq (V3 m) c 4]
  iintro ⟨H1, H9l, H8, H9r, H7, H10⟩
  ihave H9 := (pointsTo_share (PosShare.mem_left_op_right fullShare)).2 $$ [H9l H9r]
  · isplitl [H9l] <;> iassumption
  isplitl [H1]; · iexact H1
  isplitl [H9]; · iexact H9
  isplitl [H8]; · iexact H8
  isplitl [H7]; · iexact H7
  iexact H10

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (LayerRegion.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (AggRegion.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry_split m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_join m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.WholeRun

end
-- ==== Proof.Claims.lean ====
/-
  The five claims, assembled.

  The kernel, at the word level and at the extended reals alike, runs to the end and every buffer no region keeps to
  itself ends at the contents the boundary-by-boundary fold of @main gives it; the fold walks each of the seven argument
  arrays back to its launch contents, which is the frame claim of both programs, and at the extended reals it leaves the
  result array at the gated, masked neighbour aggregation of the arguments.  The reference's run ends with its result at
  the composed term of its operations, which read entry by entry is the same aggregation wherever the arguments' entries
  are real numbers; the precondition says they are.  So from memories that agree on the arguments both programs end with
  equal results and unchanged arguments.  The idealization rewrote no operation, so its ledger is empty.
-/
import proofs.«102665_j32633161515440_2_alg».proof.Defs
import proofs.«102665_j32633161515440_2_alg».proof.Proof.Gen.Kernel
import proofs.«102665_j32633161515440_2_alg».proof.Proof.Gen.KernelIdeal
import proofs.«102665_j32633161515440_2_alg».proof.Proof.Gen.ReferenceIdeal
import proofs.«102665_j32633161515440_2_alg».proof.Proof.Gen.ReferenceIdeal.Run
import proofs.«102665_j32633161515440_2_alg».proof.Proof.Gen.ReferenceIdeal.Read
import proofs.«102665_j32633161515440_2_alg».proof.Proof.Gen.Pre_finite_inputs
import proofs.«102665_j32633161515440_2_alg».proof.Proof.Spec
import proofs.«102665_j32633161515440_2_alg».proof.Proof.RefValue
import proofs.«102665_j32633161515440_2_alg».proof.Proof.Finite
import proofs.«102665_j32633161515440_2_alg».proof.Proof.Fold
import proofs.«102665_j32633161515440_2_alg».proof.Proof.WholeRun
import proofs.«102665_j32633161515440_2_alg».proof.Proof.ResultValue
import proofs.«102665_j32633161515440_2_alg».proof.Proof.BitsFold
import proofs.«102665_j32633161515440_2_alg».proof.Proof.BitsWholeRun

noncomputable section

open Idealize.ShloMosaic Idealize.ShloMosaic.TcCoe Idealize.SL.Sem

namespace Cert.Proof.Claims

open Cert.GatedAgg

/-- The word-level kernel runs and leaves its seven argument arrays as launched: the whole run's final contents of every
    unscoped buffer are the fold's, and the fold walks each argument back to its launch contents. -/
theorem frame_k : Cert.frame_Kernel := fun m ρ _ =>
  (θ_run Cert.Kernel.defs _ _).mono (fun r h c =>
    ⟨(h c _ (Cert.Kernel.WholeRun.mem_uc Cert.Kernel.main_arg0 (by decide))).trans (Cert.Kernel.Fold.W4_main_arg0 m c),
     (h c _ (Cert.Kernel.WholeRun.mem_uc Cert.Kernel.main_arg1 (by decide))).trans (Cert.Kernel.Fold.W4_main_arg1 m c),
     (h c _ (Cert.Kernel.WholeRun.mem_uc Cert.Kernel.main_arg2 (by decide))).trans (Cert.Kernel.Fold.W4_main_arg2 m c),
     (h c _ (Cert.Kernel.WholeRun.mem_uc Cert.Kernel.main_arg3 (by decide))).trans (Cert.Kernel.Fold.W4_main_arg3 m c),
     (h c _ (Cert.Kernel.WholeRun.mem_uc Cert.Kernel.main_arg4 (by decide))).trans (Cert.Kernel.Fold.W4_main_arg4 m c),
     (h c _ (Cert.Kernel.WholeRun.mem_uc Cert.Kernel.main_arg5 (by decide))).trans (Cert.Kernel.Fold.W4_main_arg5 m c),
     (h c _ (Cert.Kernel.WholeRun.mem_uc Cert.Kernel.main_arg6 (by decide))).trans (Cert.Kernel.Fold.W4_main_arg6 m c)⟩)
    (Cert.Kernel.WholeRun.run_all (F := Bits) m ρ)

/-- The same at the extended reals. -/
theorem frame_ki : Cert.frame_KernelIdeal := fun m ρ _ =>
  (θ_run Cert.KernelIdeal.defs _ _).mono (fun r h c =>
    ⟨(h c _ (Cert.KernelIdeal.WholeRun.mem_uc Cert.KernelIdeal.main_arg0 (by decide))).trans (Cert.KernelIdeal.Fold.W4_main_arg0 m c),
     (h c _ (Cert.KernelIdeal.WholeRun.mem_uc Cert.KernelIdeal.main_arg1 (by decide))).trans (Cert.KernelIdeal.Fold.W4_main_arg1 m c),
     (h c _ (Cert.KernelIdeal.WholeRun.mem_uc Cert.KernelIdeal.main_arg2 (by decide))).trans (Cert.KernelIdeal.Fold.W4_main_arg2 m c),
     (h c _ (Cert.KernelIdeal.WholeRun.mem_uc Cert.KernelIdeal.main_arg3 (by decide))).trans (Cert.KernelIdeal.Fold.W4_main_arg3 m c),
     (h c _ (Cert.KernelIdeal.WholeRun.mem_uc Cert.KernelIdeal.main_arg4 (by decide))).trans (Cert.KernelIdeal.Fold.W4_main_arg4 m c),
     (h c _ (Cert.KernelIdeal.WholeRun.mem_uc Cert.KernelIdeal.main_arg5 (by decide))).trans (Cert.KernelIdeal.Fold.W4_main_arg5 m c),
     (h c _ (Cert.KernelIdeal.WholeRun.mem_uc Cert.KernelIdeal.main_arg6 (by decide))).trans (Cert.KernelIdeal.Fold.W4_main_arg6 m c)⟩)
    (Cert.KernelIdeal.WholeRun.run_all (F := Ideal) m ρ)

/-- The reference runs and leaves its arguments as launched: the last seven conjuncts of its run read back. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- At the extended reals, from memories that agree on the seven arguments, which the precondition makes real-valued,
    both programs end with the aggregation of the arguments in their result arrays: the kernel by its value leg, the
    reference because its composed term read entry by entry is the aggregation wherever the entries are real. -/
theorem algebraic : Cert.algebraic_KernelIdeal_ReferenceIdeal := by
  intro m ρ m' ρ' hpre hagree
  refine ⟨fun c => aggArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.WholeRun.mem_uc Cert.KernelIdeal.main_v10 (by decide))).trans (Cert.KernelIdeal.ResultValue.result_eq m c),
       (h c _ (Cert.KernelIdeal.WholeRun.mem_uc Cert.KernelIdeal.main_arg0 (by decide))).trans (Cert.KernelIdeal.Fold.W4_main_arg0 m c),
       (h c _ (Cert.KernelIdeal.WholeRun.mem_uc Cert.KernelIdeal.main_arg1 (by decide))).trans (Cert.KernelIdeal.Fold.W4_main_arg1 m c),
       (h c _ (Cert.KernelIdeal.WholeRun.mem_uc Cert.KernelIdeal.main_arg2 (by decide))).trans (Cert.KernelIdeal.Fold.W4_main_arg2 m c),
       (h c _ (Cert.KernelIdeal.WholeRun.mem_uc Cert.KernelIdeal.main_arg3 (by decide))).trans (Cert.KernelIdeal.Fold.W4_main_arg3 m c),
       (h c _ (Cert.KernelIdeal.WholeRun.mem_uc Cert.KernelIdeal.main_arg4 (by decide))).trans (Cert.KernelIdeal.Fold.W4_main_arg4 m c),
       (h c _ (Cert.KernelIdeal.WholeRun.mem_uc Cert.KernelIdeal.main_arg5 (by decide))).trans (Cert.KernelIdeal.Fold.W4_main_arg5 m c),
       (h c _ (Cert.KernelIdeal.WholeRun.mem_uc Cert.KernelIdeal.main_arg6 (by decide))).trans (Cert.KernelIdeal.Fold.W4_main_arg6 m c)⟩)
      (Cert.KernelIdeal.WholeRun.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    obtain ⟨r0, r1, r2, r3, r4, r5, r6⟩ := Cert.GatedAgg.Finite.of_pre m hpre c
    rw [a0, a1, a2, a3, a4, a5, a6]
    exact (Cert.ReferenceIdeal.Read.val_main_v28_eq (F := Ideal) _ _ _ _ _ _ _).trans
      (Cert.GatedAgg.RefValue.ref_eq _ _ _ _ _ _ _ r0 r1 r2 r3 r4 r5 r6)

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

end
-- ==== Proof.lean ====
/-
  A tiled, gated neighbour aggregation agrees with its plain formulation over the extended reals.

  For a batch b, a destination node i and a feature h both programs compute
      U(b,i,h) + (Σ_j e(b,i,j,h) · V(b,j,h)) ÷ (ε + Σ_j e(b,i,j,h)),
  where U and V are two linear layers of the node features followed by the node mask m, e(b,i,j,h) is the edge gate
  g(b,i,j,h) masked by both of its end points, and ε is one f32 word, the same in both programs.  The plain
  formulation masks every edge inside the sums over the source nodes j.  The tiled program computes the two layers in
  a first region, 512 rows of the flattened (batch × node) axis at a time, and the aggregation in a second region, 64
  destination nodes of one batch at a time; there the destination mask m(b,i) stands OUTSIDE the two sums:
      U + (m_i · Σ_j (g · m_j) · V_j) ÷ (ε + m_i · Σ_j g · m_j).
  Multiplication does not distribute over addition at the infinities of the extended reals, so the two arrangements
  agree only where the inputs are real numbers — which the precondition (every input finite) gives; the quotient is
  the same function of equal arguments and is never opened.

  The parts, each in its own module under Proof/:
    Spec        the aggregation as one function of the seven argument arrays, in the tiled arrangement
    Algebra     the law joining the two arrangements where the entries are real; RefValue: the plain program's
                result, read one operation at a time, is that function; Finite: the precondition makes every entry real
    Payloads    the two region bodies' arithmetic read at an index (a matrix product into a zero accumulator, a bias
                row, a mask column; two sums over the source axis, the quotient, the sum)
    LayerRegion, AggRegion   per region: what the body leaves in each output buffer as a function of the input
                blocks, the body's triple, the region's proof data (and the same for the word-level program)
    LayerValue, AggValue     each region's write-backs folded into whole arrays: the blocks tile the arrays
    HostStages  the reshapes and transposes between the regions read at an index
    Fold        the buffers' contents followed through the program, boundary by boundary
    WholeRun    every execution terminates, faults nowhere, and ends with every buffer at the last contents; the
                second region is handed the mask array twice, so its buffer is split into two half shares on entry
                and joined again on exit (and the same for the word-level program)
    ResultValue the result array is the function of Spec
    Claims      the three frames, the idealization's (empty) ledger, and the equality of the two results
-/
import proofs.«102665_j32633161515440_2_alg».proof.Proof.Claims

noncomputable section

namespace Cert.Proof

/-- Everything the certificate claims. -/
theorem claim : Cert.Claim := Cert.Proof.Claims.claim

end Cert.Proof

end
